-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S8x32x9x64x64 : Shape := ⟨5, ![8, 32, 9, 64, 64]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel
  bcast_S_S8x32x9x64x64 : S_.BroadcastsInDim S8x32x9x64x64 (![] : Fin 0 → Fin S8x32x9x64x64.rank)
  reducesTo_S8x32x9x64x64_S_d0_1_2_3_4 : S8x32x9x64x64.ReducesTo [0, 1, 2, 3, 4] S_

variable [Facts]

def fn {F : FTy → Type} [FloatOps F] (main_arg0 : FVec F S8x256x64x64 .f32) (main_arg1 : FVec F S8x32x9x64x64 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  let main_v4 : FVec F S8x32x9x64x64 .f32 := Host.absf main_arg1
  let main_cst_0 : FVec F S_ .f32 := constant S_ .f32 0x7F800000#32
  let main_v5 : FVec F S8x32x9x64x64 .f32 := broadcastInDim S8x32x9x64x64 ![] bcast_S_S8x32x9x64x64 main_cst_0
  let main_v6 : IVec S8x32x9x64x64 1 := cmpf .olt main_v4 main_v5
  let main_c_1 : IVec S_ 1 := constantI S_ 1 1#1
  let main_v7 : IVec S_ 1 := (fun x v => Host.reduce IntOp.andi x v reducesTo_S8x32x9x64x64_S_d0_1_2_3_4 h_S_) main_v6 main_c_1
  let main_v8 : IVec S_ 1 := andi main_v3 main_v7
  main_v8
-- ==== Kernel.lean ====
abbrev S8x256x64x64 : Shape := ⟨4, ![8, 256, 64, 64]⟩
abbrev S8x32x9x64x64 : Shape := ⟨5, ![8, 32, 9, 64, 64]⟩
abbrev S1x64x64x64 : Shape := ⟨4, ![1, 64, 64, 64]⟩
abbrev S1x8x9x64x64 : Shape := ⟨5, ![1, 8, 9, 64, 64]⟩
abbrev S64x64x64 : Shape := ⟨3, ![64, 64, 64]⟩
abbrev S8x8x64x64 : Shape := ⟨4, ![8, 8, 64, 64]⟩
abbrev S8x8x1x64 : Shape := ⟨4, ![8, 8, 1, 64]⟩
abbrev S8x8x66x64 : Shape := ⟨4, ![8, 8, 66, 64]⟩
abbrev S8x8x66x1 : Shape := ⟨4, ![8, 8, 66, 1]⟩
abbrev S8x8x66x66 : Shape := ⟨4, ![8, 8, 66, 66]⟩
abbrev S8x9x64x64 : Shape := ⟨4, ![8, 9, 64, 64]⟩
abbrev S8x1x64x64 : Shape := ⟨4, ![8, 1, 64, 64]⟩
abbrev S8x64x64 : Shape := ⟨3, ![8, 64, 64]⟩

abbrev nBuf : Space → Nat
  | .hbm => 3
  | .vmem => 6
  | .smem => 0
  | _ => 0

abbrev bufTy : (tb : Table) → Fin (tcTables nBuf tb) → BufTy
  | .hbm, ⟨0, _⟩ => ⟨S8x256x64x64, .f32⟩
  | .hbm, ⟨1, _⟩ => ⟨S8x32x9x64x64, .f32⟩
  | .hbm, ⟨2, _⟩ => ⟨S8x256x64x64, .f32⟩
  | .local _ .vmem, ⟨0, _⟩ => ⟨S1x64x64x64, .f32⟩
  | .local _ .vmem, ⟨1, _⟩ => ⟨S1x64x64x64, .f32⟩
  | .local _ .vmem, ⟨2, _⟩ => ⟨S1x8x9x64x64, .f32⟩
  | .local _ .vmem, ⟨3, _⟩ => ⟨S1x8x9x64x64, .f32⟩
  | .local _ .vmem, ⟨4, _⟩ => ⟨S1x64x64x64, .f32⟩
  | .local _ .vmem, ⟨5, _⟩ => ⟨S1x64x64x64, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x9x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x64x64x64_S1x64x64x64_0_0_0_0 : ∀ a, (![0, 0, 0, 0] : Fin 4 → Nat) a + S1x64x64x64.size a ≤ S1x64x64x64.size a
  h_S1x64x64x64 : 0 < S1x64x64x64.numel
  shapeCasts_S1x64x64x64_S64x64x64 : S1x64x64x64.ShapeCasts S64x64x64
  shapeCasts_S64x64x64_S8x8x64x64 : S64x64x64.ShapeCasts S8x8x64x64
  concatenates_S8x8x1x64_S8x8x64x64_S8x8x1x64_S8x8x66x64_d2 : Shape.Concatenates [S8x8x1x64, S8x8x64x64, S8x8x1x64] S8x8x66x64 2
  concatenates_S8x8x66x1_S8x8x66x64_S8x8x66x1_S8x8x66x66_d3 : Shape.Concatenates [S8x8x66x1, S8x8x66x64, S8x8x66x1] S8x8x66x66 3
  inb_S1x8x9x64x64_S1x8x9x64x64_0_0_0_0_0 : ∀ a, (![0, 0, 0, 0, 0] : Fin 5 → Nat) a + S1x8x9x64x64.size a ≤ S1x8x9x64x64.size a
  h_S1x8x9x64x64 : 0 < S1x8x9x64x64.numel
  shapeCasts_S1x8x9x64x64_S8x9x64x64 : S1x8x9x64x64.ShapeCasts S8x9x64x64
  slices_S8x8x66x66_o0_0_0_0_S8x8x64x64 : S8x8x66x66.Slices ![0, 0, 0, 0] S8x8x64x64
  slices_S8x9x64x64_o0_0_0_0_S8x1x64x64 : S8x9x64x64.Slices ![0, 0, 0, 0] S8x1x64x64
  shapeCasts_S8x1x64x64_S8x64x64 : S8x1x64x64.ShapeCasts S8x64x64
  shapeCasts_S8x64x64_S8x1x64x64 : S8x64x64.ShapeCasts S8x1x64x64
  broadcasts_S8x1x64x64_S8x8x64x64 : S8x1x64x64.Broadcasts S8x8x64x64
  slices_S8x8x66x66_o0_0_0_1_S8x8x64x64 : S8x8x66x66.Slices ![0, 0, 0, 1] S8x8x64x64
  slices_S8x9x64x64_o0_1_0_0_S8x1x64x64 : S8x9x64x64.Slices ![0, 1, 0, 0] S8x1x64x64
  slices_S8x8x66x66_o0_0_0_2_S8x8x64x64 : S8x8x66x66.Slices ![0, 0, 0, 2] S8x8x64x64
  slices_S8x9x64x64_o0_2_0_0_S8x1x64x64 : S8x9x64x64.Slices ![0, 2, 0, 0] S8x1x64x64
  slices_S8x8x66x66_o0_0_1_0_S8x8x64x64 : S8x8x66x66.Slices ![0, 0, 1, 0] S8x8x64x64
  slices_S8x9x64x64_o0_3_0_0_S8x1x64x64 : S8x9x64x64.Slices ![0, 3, 0, 0] S8x1x64x64
  slices_S8x8x66x66_o0_0_1_1_S8x8x64x64 : S8x8x66x66.Slices ![0, 0, 1, 1] S8x8x64x64
  slices_S8x9x64x64_o0_4_0_0_S8x1x64x64 : S8x9x64x64.Slices ![0, 4, 0, 0] S8x1x64x64
  slices_S8x8x66x66_o0_0_1_2_S8x8x64x64 : S8x8x66x66.Slices ![0, 0, 1, 2] S8x8x64x64
  slices_S8x9x64x64_o0_5_0_0_S8x1x64x64 : S8x9x64x64.Slices ![0, 5, 0, 0] S8x1x64x64
  slices_S8x8x66x66_o0_0_2_0_S8x8x64x64 : S8x8x66x66.Slices ![0, 0, 2, 0] S8x8x64x64
  slices_S8x9x64x64_o0_6_0_0_S8x1x64x64 : S8x9x64x64.Slices ![0, 6, 0, 0] S8x1x64x64
  slices_S8x8x66x66_o0_0_2_1_S8x8x64x64 : S8x8x66x66.Slices ![0, 0, 2, 1] S8x8x64x64
  slices_S8x9x64x64_o0_7_0_0_S8x1x64x64 : S8x9x64x64.Slices ![0, 7, 0, 0] S8x1x64x64
  slices_S8x8x66x66_o0_0_2_2_S8x8x64x64 : S8x8x66x66.Slices ![0, 0, 2, 2] S8x8x64x64
  slices_S8x9x64x64_o0_8_0_0_S8x1x64x64 : S8x9x64x64.Slices ![0, 8, 0, 0] S8x1x64x64
  shapeCasts_S8x8x64x64_S64x64x64 : S8x8x64x64.ShapeCasts S64x64x64
  shapeCasts_S64x64x64_S1x64x64x64 : S64x64x64.ShapeCasts S1x64x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x64.size a ≤ S8x256x64x64.size a
  hwx0_0 : ∀ i : grid0.Coords, EltTy.bits .f32 = 32 ∨ (Rect.block (s := S8x256x64x64) S1x64x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x9x64x64.size a ≤ S8x32x9x64x64.size a
  hwx0_1 : ∀ i : grid0.Coords, EltTy.bits .f32 = 32 ∨ (Rect.block (s := S8x32x9x64x64) S1x8x9x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64x64.size a ≤ S8x256x64x64.size a
  hwx0_2 : ∀ i : grid0.Coords, EltTy.bits .f32 = 32 ∨ (Rect.block (s := S8x256x64x64) S1x64x64x64.size (cc0_transform_2 i) (hinb0_2 i)).WholeWords (EltTy.packing .f32)

variable [Facts₀]

abbrev win0_0 : Pipeline.Window sig grid0 :=
  Pipeline.Window.ofSpec (Memref.whole main_arg0) S1x64x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x9x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x64x64 : Shape := ⟨4, ![8, 256, 64, 64]⟩
abbrev S8x32x9x64x64 : Shape := ⟨5, ![8, 32, 9, 64, 64]⟩
abbrev S_ : Shape := ⟨0, ![]⟩
abbrev S8x256x66x66 : Shape := ⟨4, ![8, 256, 66, 66]⟩
abbrev S8x32x8x64x64 : Shape := ⟨5, ![8, 32, 8, 64, 64]⟩
abbrev S8x32x1x64x64 : Shape := ⟨5, ![8, 32, 1, 64, 64]⟩
abbrev S8x32x64x64 : Shape := ⟨4, ![8, 32, 64, 64]⟩

abbrev nBuf : Space → Nat
  | .hbm => 80
  | .vmem => 0
  | .smem => 0
  | _ => 0

abbrev bufTy : (tb : Table) → Fin (tcTables nBuf tb) → BufTy
  | .hbm, ⟨0, _⟩ => ⟨S8x256x64x64, .f32⟩
  | .hbm, ⟨1, _⟩ => ⟨S8x32x9x64x64, .f32⟩
  | .hbm, ⟨2, _⟩ => ⟨S_, .i32⟩
  | .hbm, ⟨3, _⟩ => ⟨S_, .f32⟩
  | .hbm, ⟨4, _⟩ => ⟨S8x256x66x66, .f32⟩
  | .hbm, ⟨5, _⟩ => ⟨S_, .f32⟩
  | .hbm, ⟨6, _⟩ => ⟨S8x32x8x64x64, .f32⟩
  | .hbm, ⟨7, _⟩ => ⟨S8x256x64x64, .f32⟩
  | .hbm, ⟨8, _⟩ => ⟨S8x32x8x64x64, .f32⟩
  | .hbm, ⟨9, _⟩ => ⟨S8x32x1x64x64, .f32⟩
  | .hbm, ⟨10, _⟩ => ⟨S8x32x64x64, .f32⟩
  | .hbm, ⟨11, _⟩ => ⟨S8x32x1x64x64, .f32⟩
  | .hbm, ⟨12, _⟩ => ⟨S8x32x8x64x64, .f32⟩
  | .hbm, ⟨13, _⟩ => ⟨S8x32x8x64x64, .f32⟩
  | .hbm, ⟨14, _⟩ => ⟨S8x32x8x64x64, .f32⟩
  | .hbm, ⟨15, _⟩ => ⟨S8x256x64x64, .f32⟩
  | .hbm, ⟨16, _⟩ => ⟨S8x32x8x64x64, .f32⟩
  | .hbm, ⟨17, _⟩ => ⟨S8x32x1x64x64, .f32⟩
  | .hbm, ⟨18, _⟩ => ⟨S8x32x64x64, .f32⟩
  | .hbm, ⟨19, _⟩ => ⟨S8x32x1x64x64, .f32⟩
  | .hbm, ⟨20, _⟩ => ⟨S8x32x8x64x64, .f32⟩
  | .hbm, ⟨21, _⟩ => ⟨S8x32x8x64x64, .f32⟩
  | .hbm, ⟨22, _⟩ => ⟨S8x32x8x64x64, .f32⟩
  | .hbm, ⟨23, _⟩ => ⟨S8x256x64x64, .f32⟩
  | .hbm, ⟨24, _⟩ => ⟨S8x32x8x64x64, .f32⟩
  | .hbm, ⟨25, _⟩ => ⟨S8x32x1x64x64, .f32⟩
  | .hbm, ⟨26, _⟩ => ⟨S8x32x64x64, .f32⟩
  | .hbm, ⟨27, _⟩ => ⟨S8x32x1x64x64, .f32⟩
  | .hbm, ⟨28, _⟩ => ⟨S8x32x8x64x64, .f32⟩
  | .hbm, ⟨29, _⟩ => ⟨S8x32x8x64x64, .f32⟩
  | .hbm, ⟨30, _⟩ => ⟨S8x32x8x64x64, .f32⟩
  | .hbm, ⟨31, _⟩ => ⟨S8x256x64x64, .f32⟩
  | .hbm, ⟨32, _⟩ => ⟨S8x32x8x64x64, .f32⟩
  | .hbm, ⟨33, _⟩ => ⟨S8x32x1x64x64, .f32⟩
  | .hbm, ⟨34, _⟩ => ⟨S8x32x64x64, .f32⟩
  | .hbm, ⟨35, _⟩ => ⟨S8x32x1x64x64, .f32⟩
  | .hbm, ⟨36, _⟩ => ⟨S8x32x8x64x64, .f32⟩
  | .hbm, ⟨37, _⟩ => ⟨S8x32x8x64x64, .f32⟩
  | .hbm, ⟨38, _⟩ => ⟨S8x32x8x64x64, .f32⟩
  | .hbm, ⟨39, _⟩ => ⟨S8x256x64x64, .f32⟩
  | .hbm, ⟨40, _⟩ => ⟨S8x32x8x64x64, .f32⟩
  | .hbm, ⟨41, _⟩ => ⟨S8x32x1x64x64, .f32⟩
  | .hbm, ⟨42, _⟩ => ⟨S8x32x64x64, .f32⟩
  | .hbm, ⟨43, _⟩ => ⟨S8x32x1x64x64, .f32⟩
  | .hbm, ⟨44, _⟩ => ⟨S8x32x8x64x64, .f32⟩
  | .hbm, ⟨45, _⟩ => ⟨S8x32x8x64x64, .f32⟩
  | .hbm, ⟨46, _⟩ => ⟨S8x32x8x64x64, .f32⟩
  | .hbm, ⟨47, _⟩ => ⟨S8x256x64x64, .f32⟩
  | .hbm, ⟨48, _⟩ => ⟨S8x32x8x64x64, .f32⟩
  | .hbm, ⟨49, _⟩ => ⟨S8x32x1x64x64, .f32⟩
  | .hbm, ⟨50, _⟩ => ⟨S8x32x64x64, .f32⟩
  | .hbm, ⟨51, _⟩ => ⟨S8x32x1x64x64, .f32⟩
  | .hbm, ⟨52, _⟩ => ⟨S8x32x8x64x64, .f32⟩
  | .hbm, ⟨53, _⟩ => ⟨S8x32x8x64x64, .f32⟩
  | .hbm, ⟨54, _⟩ => ⟨S8x32x8x64x64, .f32⟩
  | .hbm, ⟨55, _⟩ => ⟨S8x256x64x64, .f32⟩
  | .hbm, ⟨56, _⟩ => ⟨S8x32x8x64x64, .f32⟩
  | .hbm, ⟨57, _⟩ => ⟨S8x32x1x64x64, .f32⟩
  | .hbm, ⟨58, _⟩ => ⟨S8x32x64x64, .f32⟩
  | .hbm, ⟨59, _⟩ => ⟨S8x32x1x64x64, .f32⟩
  | .hbm, ⟨60, _⟩ => ⟨S8x32x8x64x64, .f32⟩
  | .hbm, ⟨61, _⟩ => ⟨S8x32x8x64x64, .f32⟩
  | .hbm, ⟨62, _⟩ => ⟨S8x32x8x64x64, .f32⟩
  | .hbm, ⟨63, _⟩ => ⟨S8x256x64x64, .f32⟩
  | .hbm, ⟨64, _⟩ => ⟨S8x32x8x64x64, .f32⟩
  | .hbm, ⟨65, _⟩ => ⟨S8x32x1x64x64, .f32⟩
  | .hbm, ⟨66, _⟩ => ⟨S8x32x64x64, .f32⟩
  | .hbm, ⟨67, _⟩ => ⟨S8x32x1x64x64, .f32⟩
  | .hbm, ⟨68, _⟩ => ⟨S8x32x8x64x64, .f32⟩
  | .hbm, ⟨69, _⟩ => ⟨S8x32x8x64x64, .f32⟩
  | .hbm, ⟨70, _⟩ => ⟨S8x32x8x64x64, .f32⟩
  | .hbm, ⟨71, _⟩ => ⟨S8x256x64x64, .f32⟩
  | .hbm, ⟨72, _⟩ => ⟨S8x32x8x64x64, .f32⟩
  | .hbm, ⟨73, _⟩ => ⟨S8x32x1x64x64, .f32⟩
  | .hbm, ⟨74, _⟩ => ⟨S8x32x64x64, .f32⟩
  | .hbm, ⟨75, _⟩ => ⟨S8x32x1x64x64, .f32⟩
  | .hbm, ⟨76, _⟩ => ⟨S8x32x8x64x64, .f32⟩
  | .hbm, ⟨77, _⟩ => ⟨S8x32x8x64x64, .f32⟩
  | .hbm, ⟨78, _⟩ => ⟨S8x32x8x64x64, .f32⟩
  | .hbm, ⟨79, _⟩ => ⟨S8x256x64x64, .f32⟩
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩

abbrev nD : Nat := 1
abbrev τ : Topo := Topo.v7x

variable {F : FTy → Type} [FloatOps F]

class Facts₀ : Prop where
  pads_S8x256x64x64_S8x256x66x66_000_000_110_110 : S8x256x64x64.Pads (![0, 0, 1, 1] : Fin 4 → Nat) ![0, 0, 1, 1] ![0, 0, 0, 0] S8x256x66x66
  h_S_ : 0 < S_.numel
  bcast_S_S8x32x8x64x64 : S_.BroadcastsInDim S8x32x8x64x64 (![] : Fin 0 → Fin S8x32x8x64x64.rank)
  slices_S8x256x66x66_S8x256x64x64_0_0_0_0 : S8x256x66x66.Slices ![0, 0, 0, 0] S8x256x64x64
  shapeCasts_S8x256x64x64_S8x32x8x64x64 : S8x256x64x64.ShapeCasts S8x32x8x64x64
  slices_S8x32x9x64x64_S8x32x1x64x64_0_0_0_0_0 : S8x32x9x64x64.Slices ![0, 0, 0, 0, 0] S8x32x1x64x64
  shapeCasts_S8x32x1x64x64_S8x32x64x64 : S8x32x1x64x64.ShapeCasts S8x32x64x64
  bcast_S8x32x64x64_S8x32x1x64x64_0_1_3_4 : S8x32x64x64.BroadcastsInDim S8x32x1x64x64 (![0, 1, 3, 4] : Fin 4 → Fin S8x32x1x64x64.rank)
  bcast_S8x32x1x64x64_S8x32x8x64x64_0_1_2_3_4 : S8x32x1x64x64.BroadcastsInDim S8x32x8x64x64 (![0, 1, 2, 3, 4] : Fin 5 → Fin S8x32x8x64x64.rank)
  slices_S8x256x66x66_S8x256x64x64_0_0_0_1 : S8x256x66x66.Slices ![0, 0, 0, 1] S8x256x64x64
  slices_S8x32x9x64x64_S8x32x1x64x64_0_0_1_0_0 : S8x32x9x64x64.Slices ![0, 0, 1, 0, 0] S8x32x1x64x64
  slices_S8x256x66x66_S8x256x64x64_0_0_0_2 : S8x256x66x66.Slices ![0, 0, 0, 2] S8x256x64x64
  slices_S8x32x9x64x64_S8x32x1x64x64_0_0_2_0_0 : S8x32x9x64x64.Slices ![0, 0, 2, 0, 0] S8x32x1x64x64
  slices_S8x256x66x66_S8x256x64x64_0_0_1_0 : S8x256x66x66.Slices ![0, 0, 1, 0] S8x256x64x64
  slices_S8x32x9x64x64_S8x32x1x64x64_0_0_3_0_0 : S8x32x9x64x64.Slices ![0, 0, 3, 0, 0] S8x32x1x64x64
  slices_S8x256x66x66_S8x256x64x64_0_0_1_1 : S8x256x66x66.Slices ![0, 0, 1, 1] S8x256x64x64
  slices_S8x32x9x64x64_S8x32x1x64x64_0_0_4_0_0 : S8x32x9x64x64.Slices ![0, 0, 4, 0, 0] S8x32x1x64x64
  slices_S8x256x66x66_S8x256x64x64_0_0_1_2 : S8x256x66x66.Slices ![0, 0, 1, 2] S8x256x64x64
  slices_S8x32x9x64x64_S8x32x1x64x64_0_0_5_0_0 : S8x32x9x64x64.Slices ![0, 0, 5, 0, 0] S8x32x1x64x64
  slices_S8x256x66x66_S8x256x64x64_0_0_2_0 : S8x256x66x66.Slices ![0, 0, 2, 0] S8x256x64x64
  slices_S8x32x9x64x64_S8x32x1x64x64_0_0_6_0_0 : S8x32x9x64x64.Slices ![0, 0, 6, 0, 0] S8x32x1x64x64
  slices_S8x256x66x66_S8x256x64x64_0_0_2_1 : S8x256x66x66.Slices ![0, 0, 2, 1] S8x256x64x64
  slices_S8x32x9x64x64_S8x32x1x64x64_0_0_7_0_0 : S8x32x9x64x64.Slices ![0, 0, 7, 0, 0] S8x32x1x64x64
  slices_S8x256x66x66_S8x256x64x64_0_0_2_2 : S8x256x66x66.Slices ![0, 0, 2, 2] S8x256x64x64
  slices_S8x32x9x64x64_S8x32x1x64x64_0_0_8_0_0 : S8x32x9x64x64.Slices ![0, 0, 8, 0, 0] S8x32x1x64x64
  shapeCasts_S8x32x8x64x64_S8x256x64x64 : S8x32x8x64x64.ShapeCasts S8x256x64x64

variable [Facts₀]

class Facts : Prop extends Facts₀ where

variable [Facts]
-- ==== Proof.Spec.lean ====
/-
  The result both programs compute, as ONE function of the two argument arrays, index by index.

  The image `x` has 8 batches of 256 planes of 64 × 64 entries; the weights `w` have, for each batch and each of 32
  groups of 8 consecutive planes, nine 64 × 64 planes, one per position of a 3 × 3 window. Every plane of `x` is read
  with a border of zeros one entry wide (`bordered`: entry (r, s) of the 66 × 66 bordered plane is entry (r−1, s−1) of
  the plane when both r and s lie in 1 … 64, and 0 on the border). The result at (b, c, h, v) is the sum over the nine
  window positions k = 3·i + j of

      bordered x b c (h + i) (v + j) · w (b, c / 8, k, h, v),

  taken in the order k = 0, 1, …, 8, each product added on the right of the running sum, starting from zero. No
  law of the extended reals is used anywhere: both programs form exactly this expression.
-/
import Idealize.ShloMosaic.PureOps.Ideal
import Idealize.ShloMosaic.PureOps.Ideal.Laws
import Idealize.ShloMosaic.Lib.ValueIdx

noncomputable section

namespace Cert.PixelConv

open Idealize.ShloMosaic Idealize.ShloMosaic.ValueIdx

/-- The image's shape: batch, plane, row, column. -/
abbrev XS : Shape := ⟨4, ![8, 256, 64, 64]⟩
/-- The weights' shape: batch, group of eight planes, window position, row, column. -/
abbrev WS : Shape := ⟨5, ![8, 32, 9, 64, 64]⟩

/-- Entry (r, s) of plane (b, c) of the image with a border of zeros one entry wide on all four sides: rows and
    columns 1 … 64 of the bordered plane are the plane itself, row and column 0 and 65 are zero. -/
def bordered (x : XS.Idx → EReal) (b : Fin 8) (c : Fin 256) (r s : Nat) : EReal :=
  if h : (1 ≤ r ∧ r ≤ 64) ∧ (1 ≤ s ∧ s ≤ 64) then x (ix4 b c ⟨r - 1, by omega⟩ ⟨s - 1, by omega⟩) else 0

/-- Inside the border the bordered plane is the plane, one row and one column back. -/
theorem bordered_inside (x : XS.Idx → EReal) (b : Fin 8) (c : Fin 256) (r s : Nat) (p q : Fin 64)
    (hr : r = p.val + 1) (hs : s = q.val + 1) : bordered x b c r s = x (ix4 b c p q) := by
  subst hr hs
  unfold bordered
  rw [dif_pos ⟨⟨by omega, by have := p.isLt; omega⟩, ⟨by omega, by have := q.isLt; omega⟩⟩]
  exact congrArg x (by congr 1 <;> exact Fin.ext (by simp))

/-- On the border the bordered plane is zero. -/
theorem bordered_border (x : XS.Idx → EReal) (b : Fin 8) (c : Fin 256) (r s : Nat)
    (h : ¬((1 ≤ r ∧ r ≤ 64) ∧ (1 ≤ s ∧ s ≤ 64))) : bordered x b c r s = 0 := by
  unfold bordered
  rw [dif_neg h]

/-- Window position `k = 3·i + j` at output entry (b, c, h, v): the bordered plane at (h + i, v + j) times the weight of
    the plane's group at that position and entry. -/
def tap (x : XS.Idx → EReal) (w : WS.Idx → EReal) (b : Fin 8) (c : Fin 256) (h v : Fin 64) (k : Fin 9) : EReal :=
  bordered x b c (h.val + k.val / 3) (v.val + k.val % 3)
    * w (ix5 b (⟨c.val / 8, by have := c.isLt; omega⟩ : Fin 32) k h v)

/-- The result at (b, c, h, v): the nine window positions' products added in order onto zero. -/
def convAt (x : XS.Idx → EReal) (w : WS.Idx → EReal) (b : Fin 8) (c : Fin 256) (h v : Fin 64) : EReal :=
  Ideal.ofBits .f32 0x00000000#32 + tap x w b c h v 0 + tap x w b c h v 1 + tap x w b c h v 2 + tap x w b c h v 3
    + tap x w b c h v 4 + tap x w b c h v 5 + tap x w b c h v 6 + tap x w b c h v 7 + tap x w b c h v 8

/-- The whole result array. -/
def conv (x : XS.Idx → EReal) (w : WS.Idx → EReal) : XS.Idx → EReal :=
  fun i => convAt x w (i 0) (i 1) (i 2) (i 3)

theorem conv_ix4 (x : XS.Idx → EReal) (w : WS.Idx → EReal) (b : Fin 8) (c : Fin 256) (h v : Fin 64) :
    conv x w (ix4 b c h v) = convAt x w b c h v := rfl

end Cert.PixelConv

end
-- ==== Proof.RefConv.lean ====
/-
  The reference program computes the specified per-pixel 3 × 3 window sum.

  The reference pads every plane of the image with a border of zeros one entry wide, and then, for each of the nine
  window positions k = 3·i + j in turn, cuts the 64 × 64 window of the padded image that starts at row i and column j,
  regroups its 256 planes as 32 groups of 8, multiplies it entry by entry with plane k of the weights (one plane per
  group, repeated over the 8 planes of the group), and adds the product on the right of the running sum, which starts
  as the array of zeros. The sum, regrouped back to 256 planes, is the result.

  Read at one entry (b, c, h, v), with c = 8·g + q: the padded image at (b, c, r, s) is `bordered x b c r s`; the
  regrouped window k at (b, g, q, h, v) is the padded image at (b, 8·g + q, h + i, v + j); the repeated weight plane
  at (b, g, q, h, v) is w (b, g, k, h, v). So the running sum at (b, g, q, h, v) is the specification's sum, term for
  term and in the same order, and no law of the extended reals is needed.
-/
import proofs.«178956_j54769422958614_2_alg».proof.Proof.Gen.ReferenceIdeal.Read
import proofs.«178956_j54769422958614_2_alg».proof.Proof.Spec
import Idealize.ShloMosaic.Lib.Pipeline.Value
import Idealize.ShloMosaic.Lib.KernelVsHost
import Idealize.ShloMosaic.Lib.ValueIdx

noncomputable section

namespace Cert.PixelConv.Ref

open Idealize.ShloMosaic Idealize.ShloMosaic.ValueIdx Cert.ReferenceIdeal Cert.ReferenceIdeal.Read

/-- The regrouped window of a padded image: the window of the 66 × 66 planes that starts at row `di` and column `dj`,
    with its 256 planes regrouped as 32 groups of 8, read at (b, g, q, h, v), is the padded image at plane
    c = 8·g + q, row h + di, column v + dj. (Regrouping keeps the row-major position, and
    ((b·32 + g)·8 + q) = b·256 + (8·g + q).) -/
theorem window_apply (y : S8x256x66x66.Idx → EReal) (di dj : Nat) (hdi : di ≤ 2) (hdj : dj ≤ 2)
    (hs : S8x256x66x66.Slices ![0, 0, di, dj] S8x256x64x64) (hc : S8x256x64x64.ShapeCasts S8x32x8x64x64)
    (b : Fin 8) (g : Fin 32) (q : Fin 8) (c : Fin 256) (hcg : c.val = g.val * 8 + q.val) (h v : Fin 64) :
    shapeCast S8x32x8x64x64 (extractStridedSlice S8x256x64x64 ![0, 0, di, dj] y hs) hc (ix5 b g q h v)
      = y (ix4 b c (⟨h.val + di, by have := h.isLt; omega⟩ : Fin 66) (⟨v.val + dj, by have := v.isLt; omega⟩ : Fin 66)) := by
  refine (shapeCast_apply _ hc (ix5 b g q h v) (ix4 b c h v) ?_).trans ?_
  · rewrite [Shape.rowMajor_val_four, Shape.rowMajor_val_five]
    show ((b.val * 256 + c.val) * 64 + h.val) * 64 + v.val = (((b.val * 32 + g.val) * 8 + q.val) * 64 + h.val) * 64 + v.val
    rw [hcg]; ring
  · exact extractStridedSlice_apply _ y hs (ix4 b c h v) _ (fun a => match a with
      | ⟨0, _⟩ => by show b.val = 0 + b.val; omega
      | ⟨1, _⟩ => by show c.val = 0 + c.val; omega
      | ⟨2, _⟩ => by show h.val + di = di + h.val; omega
      | ⟨3, _⟩ => by show v.val + dj = dj + v.val; omega)

/-- The padding value: the integer word 0 converted to a number is the number 0. -/
theorem padValue_apply (i : S_.Idx) : val_main_call0_v0 (F := Ideal) i = (0 : EReal) := by
  show (((0#32 : BitVec 32).toInt : ℝ) : EReal) = 0
  simp

/-- The padded image at (b, c, r, s) is the bordered plane of the specification: rows and columns 1 … 64 hold the
    plane, one row and one column back; row and column 0 and 65 hold the padding value, which is 0. -/
theorem padded_apply (x : S8x256x64x64.Idx → EReal) (b : Fin 8) (c : Fin 256) (r s : Fin 66) :
    val_main_v0 (F := Ideal) x (ix4 b c r s) = bordered x b c r.val s.val := by
  unfold val_main_v0
  by_cases hr : 1 ≤ r.val ∧ r.val ≤ 64
  · by_cases hs : 1 ≤ s.val ∧ s.val ≤ 64
    · rw [bordered_inside x b c r.val s.val (⟨r.val - 1, by omega⟩ : Fin 64) (⟨s.val - 1, by omega⟩ : Fin 64)
        (by show r.val = r.val - 1 + 1; omega) (by show s.val = s.val - 1 + 1; omega)]
      exact pad_apply_of_inside _ _ _ x _ _ _ (ix4 b c r s)
        (ix4 b c (⟨r.val - 1, by omega⟩ : Fin 64) (⟨s.val - 1, by omega⟩ : Fin 64)) (fun a => match a with
        | ⟨0, _⟩ => by show b.val = 0 + b.val * (0 + 1); omega
        | ⟨1, _⟩ => by show c.val = 0 + c.val * (0 + 1); omega
        | ⟨2, _⟩ => by show r.val = 1 + (r.val - 1) * (0 + 1); omega
        | ⟨3, _⟩ => by show s.val = 1 + (s.val - 1) * (0 + 1); omega)
    · rw [bordered_border x b c r.val s.val (fun hh => hs hh.2)]
      refine (pad_apply_of_not_inside _ _ _ x _ _ _ (ix4 b c r s) (⟨3, by decide⟩ : Fin 4) ?_).trans (padValue_apply _)
      show ¬(1 ≤ s.val ∧ (s.val - 1) % (0 + 1) = 0 ∧ (s.val - 1) / (0 + 1) < 64)
      omega
  · rw [bordered_border x b c r.val s.val (fun hh => hr hh.1)]
    refine (pad_apply_of_not_inside _ _ _ x _ _ _ (ix4 b c r s) (⟨2, by decide⟩ : Fin 4) ?_).trans (padValue_apply _)
    show ¬(1 ≤ r.val ∧ (r.val - 1) % (0 + 1) = 0 ∧ (r.val - 1) / (0 + 1) < 64)
    omega

/-- The repeated weight plane: plane `k` of the weights (the window position's own), with its unit axis dropped, put
    back, and then repeated over the 8 planes of each group, read at (b, g, q, h, v), is w (b, g, k, h, v) — the
    same for every q. -/
theorem weight_apply (w : S8x32x9x64x64.Idx → EReal) (k : Nat) (hk : k < 9)
    (hs : S8x32x9x64x64.Slices ![0, 0, k, 0, 0] S8x32x1x64x64) (hc : S8x32x1x64x64.ShapeCasts S8x32x64x64)
    (hb1 : S8x32x64x64.BroadcastsInDim S8x32x1x64x64 (![0, 1, 3, 4] : Fin 4 → Fin S8x32x1x64x64.rank))
    (hb2 : S8x32x1x64x64.BroadcastsInDim S8x32x8x64x64 (![0, 1, 2, 3, 4] : Fin 5 → Fin S8x32x8x64x64.rank))
    (b : Fin 8) (g : Fin 32) (q : Fin 8) (h v : Fin 64) :
    broadcastInDim S8x32x8x64x64 ![0, 1, 2, 3, 4] hb2
        (broadcastInDim S8x32x1x64x64 ![0, 1, 3, 4] hb1
          (shapeCast S8x32x64x64 (extractStridedSlice S8x32x1x64x64 ![0, 0, k, 0, 0] w hs) hc)) (ix5 b g q h v)
      = w (ix5 b g (⟨k, hk⟩ : Fin 9) h v) := by
  refine (broadcastInDim_apply _ hb2 _ (ix5 b g q h v) (ix5 b g (0 : Fin 1) h v) (fun a => match a with
      | ⟨0, _⟩ => by show b.val = if (8 : Nat) = 1 then 0 else b.val; rw [if_neg (by decide)]
      | ⟨1, _⟩ => by show g.val = if (32 : Nat) = 1 then 0 else g.val; rw [if_neg (by decide)]
      | ⟨2, _⟩ => by show 0 = if (1 : Nat) = 1 then 0 else q.val; rw [if_pos rfl]
      | ⟨3, _⟩ => by show h.val = if (64 : Nat) = 1 then 0 else h.val; rw [if_neg (by decide)]
      | ⟨4, _⟩ => by show v.val = if (64 : Nat) = 1 then 0 else v.val; rw [if_neg (by decide)])).trans ?_
  refine (broadcastInDim_apply _ hb1 _ (ix5 b g (0 : Fin 1) h v) (ix4 b g h v) (fun a => match a with
      | ⟨0, _⟩ => by show b.val = if (8 : Nat) = 1 then 0 else b.val; rw [if_neg (by decide)]
      | ⟨1, _⟩ => by show g.val = if (32 : Nat) = 1 then 0 else g.val; rw [if_neg (by decide)]
      | ⟨2, _⟩ => by show h.val = if (64 : Nat) = 1 then 0 else h.val; rw [if_neg (by decide)]
      | ⟨3, _⟩ => by show v.val = if (64 : Nat) = 1 then 0 else v.val; rw [if_neg (by decide)])).trans ?_
  refine (shapeCast_apply _ hc (ix4 b g h v) (ix5 b g (0 : Fin 1) h v) ?_).trans ?_
  · rewrite [Shape.rowMajor_val_five, Shape.rowMajor_val_four]
    show (((b.val * 32 + g.val) * 1 + 0) * 64 + h.val) * 64 + v.val = ((b.val * 32 + g.val) * 64 + h.val) * 64 + v.val
    omega
  · exact extractStridedSlice_apply _ w hs (ix5 b g (0 : Fin 1) h v) _ (fun a => match a with
      | ⟨0, _⟩ => by show b.val = 0 + b.val; omega
      | ⟨1, _⟩ => by show g.val = 0 + g.val; omega
      | ⟨2, _⟩ => by show k = k + 0; omega
      | ⟨3, _⟩ => by show h.val = 0 + h.val; omega
      | ⟨4, _⟩ => by show v.val = 0 + v.val; omega)

/-- The group of eight consecutive planes that plane `c` lies in. -/
abbrev grp (c : Fin 256) : Fin 32 := ⟨c.val / 8, by have := c.isLt; omega⟩
/-- The place of plane `c` within its group. -/
abbrev inGrp (c : Fin 256) : Fin 8 := ⟨c.val % 8, Nat.mod_lt _ (by decide)⟩
/-- Plane `c` is plane number `c % 8` of group `c / 8`. -/
theorem grp_inGrp (c : Fin 256) : c.val = (grp c).val * 8 + (inGrp c).val := by
  show c.val = c.val / 8 * 8 + c.val % 8
  omega

/-! The nine products. Window position k = 3·i + j: the window of the padded image that starts at row i and column j,
    regrouped, times the repeated weight plane k, read at (b, c / 8, c % 8, h, v), is the specification's `tap` k:
    the two per-operand readings above, and the padded image read as the bordered plane. -/

theorem term0 (x : S8x256x64x64.Idx → EReal) (w : S8x32x9x64x64.Idx → EReal) (b : Fin 8) (c : Fin 256) (h v : Fin 64) :
    val_main_v8 (F := Ideal) x w (ix5 b (grp c) (inGrp c) h v) = tap x w b c h v 0 := by
  have e1 : val_main_v3 (F := Ideal) x (ix5 b (grp c) (inGrp c) h v) = bordered x b c (h.val + 0) (v.val + 0) := by
    unfold val_main_v3 val_main_v2
    exact (window_apply (val_main_v0 (F := Ideal) x) 0 0 (by omega) (by omega) _ _ b (grp c) (inGrp c) c (grp_inGrp c) h v).trans
      (padded_apply x b c _ _)
  have e2 : val_main_v7 (F := Ideal) w (ix5 b (grp c) (inGrp c) h v) = w (ix5 b (grp c) (⟨0, by decide⟩ : Fin 9) h v) := by
    unfold val_main_v7 val_main_v6 val_main_v5 val_main_v4
    exact weight_apply w 0 (by decide) _ _ _ _ b (grp c) (inGrp c) h v
  rw [val_main_v8_apply, Ideal.mulf_def, e1, e2]
  rfl

theorem term1 (x : S8x256x64x64.Idx → EReal) (w : S8x32x9x64x64.Idx → EReal) (b : Fin 8) (c : Fin 256) (h v : Fin 64) :
    val_main_v16 (F := Ideal) x w (ix5 b (grp c) (inGrp c) h v) = tap x w b c h v 1 := by
  have e1 : val_main_v11 (F := Ideal) x (ix5 b (grp c) (inGrp c) h v) = bordered x b c (h.val + 0) (v.val + 1) := by
    unfold val_main_v11 val_main_v10
    exact (window_apply (val_main_v0 (F := Ideal) x) 0 1 (by omega) (by omega) _ _ b (grp c) (inGrp c) c (grp_inGrp c) h v).trans
      (padded_apply x b c _ _)
  have e2 : val_main_v15 (F := Ideal) w (ix5 b (grp c) (inGrp c) h v) = w (ix5 b (grp c) (⟨1, by decide⟩ : Fin 9) h v) := by
    unfold val_main_v15 val_main_v14 val_main_v13 val_main_v12
    exact weight_apply w 1 (by decide) _ _ _ _ b (grp c) (inGrp c) h v
  rw [val_main_v16_apply, Ideal.mulf_def, e1, e2]
  rfl

theorem term2 (x : S8x256x64x64.Idx → EReal) (w : S8x32x9x64x64.Idx → EReal) (b : Fin 8) (c : Fin 256) (h v : Fin 64) :
    val_main_v24 (F := Ideal) x w (ix5 b (grp c) (inGrp c) h v) = tap x w b c h v 2 := by
  have e1 : val_main_v19 (F := Ideal) x (ix5 b (grp c) (inGrp c) h v) = bordered x b c (h.val + 0) (v.val + 2) := by
    unfold val_main_v19 val_main_v18
    exact (window_apply (val_main_v0 (F := Ideal) x) 0 2 (by omega) (by omega) _ _ b (grp c) (inGrp c) c (grp_inGrp c) h v).trans
      (padded_apply x b c _ _)
  have e2 : val_main_v23 (F := Ideal) w (ix5 b (grp c) (inGrp c) h v) = w (ix5 b (grp c) (⟨2, by decide⟩ : Fin 9) h v) := by
    unfold val_main_v23 val_main_v22 val_main_v21 val_main_v20
    exact weight_apply w 2 (by decide) _ _ _ _ b (grp c) (inGrp c) h v
  rw [val_main_v24_apply, Ideal.mulf_def, e1, e2]
  rfl

theorem term3 (x : S8x256x64x64.Idx → EReal) (w : S8x32x9x64x64.Idx → EReal) (b : Fin 8) (c : Fin 256) (h v : Fin 64) :
    val_main_v32 (F := Ideal) x w (ix5 b (grp c) (inGrp c) h v) = tap x w b c h v 3 := by
  have e1 : val_main_v27 (F := Ideal) x (ix5 b (grp c) (inGrp c) h v) = bordered x b c (h.val + 1) (v.val + 0) := by
    unfold val_main_v27 val_main_v26
    exact (window_apply (val_main_v0 (F := Ideal) x) 1 0 (by omega) (by omega) _ _ b (grp c) (inGrp c) c (grp_inGrp c) h v).trans
      (padded_apply x b c _ _)
  have e2 : val_main_v31 (F := Ideal) w (ix5 b (grp c) (inGrp c) h v) = w (ix5 b (grp c) (⟨3, by decide⟩ : Fin 9) h v) := by
    unfold val_main_v31 val_main_v30 val_main_v29 val_main_v28
    exact weight_apply w 3 (by decide) _ _ _ _ b (grp c) (inGrp c) h v
  rw [val_main_v32_apply, Ideal.mulf_def, e1, e2]
  rfl

theorem term4 (x : S8x256x64x64.Idx → EReal) (w : S8x32x9x64x64.Idx → EReal) (b : Fin 8) (c : Fin 256) (h v : Fin 64) :
    val_main_v40 (F := Ideal) x w (ix5 b (grp c) (inGrp c) h v) = tap x w b c h v 4 := by
  have e1 : val_main_v35 (F := Ideal) x (ix5 b (grp c) (inGrp c) h v) = bordered x b c (h.val + 1) (v.val + 1) := by
    unfold val_main_v35 val_main_v34
    exact (window_apply (val_main_v0 (F := Ideal) x) 1 1 (by omega) (by omega) _ _ b (grp c) (inGrp c) c (grp_inGrp c) h v).trans
      (padded_apply x b c _ _)
  have e2 : val_main_v39 (F := Ideal) w (ix5 b (grp c) (inGrp c) h v) = w (ix5 b (grp c) (⟨4, by decide⟩ : Fin 9) h v) := by
    unfold val_main_v39 val_main_v38 val_main_v37 val_main_v36
    exact weight_apply w 4 (by decide) _ _ _ _ b (grp c) (inGrp c) h v
  rw [val_main_v40_apply, Ideal.mulf_def, e1, e2]
  rfl

theorem term5 (x : S8x256x64x64.Idx → EReal) (w : S8x32x9x64x64.Idx → EReal) (b : Fin 8) (c : Fin 256) (h v : Fin 64) :
    val_main_v48 (F := Ideal) x w (ix5 b (grp c) (inGrp c) h v) = tap x w b c h v 5 := by
  have e1 : val_main_v43 (F := Ideal) x (ix5 b (grp c) (inGrp c) h v) = bordered x b c (h.val + 1) (v.val + 2) := by
    unfold val_main_v43 val_main_v42
    exact (window_apply (val_main_v0 (F := Ideal) x) 1 2 (by omega) (by omega) _ _ b (grp c) (inGrp c) c (grp_inGrp c) h v).trans
      (padded_apply x b c _ _)
  have e2 : val_main_v47 (F := Ideal) w (ix5 b (grp c) (inGrp c) h v) = w (ix5 b (grp c) (⟨5, by decide⟩ : Fin 9) h v) := by
    unfold val_main_v47 val_main_v46 val_main_v45 val_main_v44
    exact weight_apply w 5 (by decide) _ _ _ _ b (grp c) (inGrp c) h v
  rw [val_main_v48_apply, Ideal.mulf_def, e1, e2]
  rfl

theorem term6 (x : S8x256x64x64.Idx → EReal) (w : S8x32x9x64x64.Idx → EReal) (b : Fin 8) (c : Fin 256) (h v : Fin 64) :
    val_main_v56 (F := Ideal) x w (ix5 b (grp c) (inGrp c) h v) = tap x w b c h v 6 := by
  have e1 : val_main_v51 (F := Ideal) x (ix5 b (grp c) (inGrp c) h v) = bordered x b c (h.val + 2) (v.val + 0) := by
    unfold val_main_v51 val_main_v50
    exact (window_apply (val_main_v0 (F := Ideal) x) 2 0 (by omega) (by omega) _ _ b (grp c) (inGrp c) c (grp_inGrp c) h v).trans
      (padded_apply x b c _ _)
  have e2 : val_main_v55 (F := Ideal) w (ix5 b (grp c) (inGrp c) h v) = w (ix5 b (grp c) (⟨6, by decide⟩ : Fin 9) h v) := by
    unfold val_main_v55 val_main_v54 val_main_v53 val_main_v52
    exact weight_apply w 6 (by decide) _ _ _ _ b (grp c) (inGrp c) h v
  rw [val_main_v56_apply, Ideal.mulf_def, e1, e2]
  rfl

theorem term7 (x : S8x256x64x64.Idx → EReal) (w : S8x32x9x64x64.Idx → EReal) (b : Fin 8) (c : Fin 256) (h v : Fin 64) :
    val_main_v64 (F := Ideal) x w (ix5 b (grp c) (inGrp c) h v) = tap x w b c h v 7 := by
  have e1 : val_main_v59 (F := Ideal) x (ix5 b (grp c) (inGrp c) h v) = bordered x b c (h.val + 2) (v.val + 1) := by
    unfold val_main_v59 val_main_v58
    exact (window_apply (val_main_v0 (F := Ideal) x) 2 1 (by omega) (by omega) _ _ b (grp c) (inGrp c) c (grp_inGrp c) h v).trans
      (padded_apply x b c _ _)
  have e2 : val_main_v63 (F := Ideal) w (ix5 b (grp c) (inGrp c) h v) = w (ix5 b (grp c) (⟨7, by decide⟩ : Fin 9) h v) := by
    unfold val_main_v63 val_main_v62 val_main_v61 val_main_v60
    exact weight_apply w 7 (by decide) _ _ _ _ b (grp c) (inGrp c) h v
  rw [val_main_v64_apply, Ideal.mulf_def, e1, e2]
  rfl

theorem term8 (x : S8x256x64x64.Idx → EReal) (w : S8x32x9x64x64.Idx → EReal) (b : Fin 8) (c : Fin 256) (h v : Fin 64) :
    val_main_v72 (F := Ideal) x w (ix5 b (grp c) (inGrp c) h v) = tap x w b c h v 8 := by
  have e1 : val_main_v67 (F := Ideal) x (ix5 b (grp c) (inGrp c) h v) = bordered x b c (h.val + 2) (v.val + 2) := by
    unfold val_main_v67 val_main_v66
    exact (window_apply (val_main_v0 (F := Ideal) x) 2 2 (by omega) (by omega) _ _ b (grp c) (inGrp c) c (grp_inGrp c) h v).trans
      (padded_apply x b c _ _)
  have e2 : val_main_v71 (F := Ideal) w (ix5 b (grp c) (inGrp c) h v) = w (ix5 b (grp c) (⟨8, by decide⟩ : Fin 9) h v) := by
    unfold val_main_v71 val_main_v70 val_main_v69 val_main_v68
    exact weight_apply w 8 (by decide) _ _ _ _ b (grp c) (inGrp c) h v
  rw [val_main_v72_apply, Ideal.mulf_def, e1, e2]
  rfl

/-- The running sum after the ninth window position, read at (b, c / 8, c % 8, h, v): each of the nine sums reads as the
    sum of its two operands' entries, the array of zeros reads the zero word at every entry, and the nine products are
    the specification's taps, in the specification's order. -/
theorem sum_apply (x : S8x256x64x64.Idx → EReal) (w : S8x32x9x64x64.Idx → EReal) (b : Fin 8) (c : Fin 256) (h v : Fin 64) :
    val_main_v73 (F := Ideal) x w (ix5 b (grp c) (inGrp c) h v) = convAt x w b c h v := by
  have z : val_main_v1 (F := Ideal) (ix5 b (grp c) (inGrp c) h v) = Ideal.ofBits .f32 0x00000000#32 :=
    (val_main_v1_apply _).trans (val_main_cst_apply _)
  rw [val_main_v73_apply, Ideal.addf_def,
    val_main_v65_apply, Ideal.addf_def,
    val_main_v57_apply, Ideal.addf_def,
    val_main_v49_apply, Ideal.addf_def,
    val_main_v41_apply, Ideal.addf_def,
    val_main_v33_apply, Ideal.addf_def,
    val_main_v25_apply, Ideal.addf_def,
    val_main_v17_apply, Ideal.addf_def,
    val_main_v9_apply, Ideal.addf_def,
    z, term0, term1, term2, term3, term4, term5, term6, term7, term8]
  rfl

/-- The reference's result is the specified array: its last operation regroups the 32 groups of 8 planes back to 256
    planes, so entry (b, c, h, v) of the result is entry (b, c / 8, c % 8, h, v) of the running sum
    (the same row-major position: (b·32 + c / 8)·8 + c % 8 = b·256 + c). -/
theorem ref_eq_conv (x : (⟨Cert.ReferenceIdeal.S8x256x64x64, .f32⟩ : BufTy).Contents (Elt Ideal))
    (w : (⟨Cert.ReferenceIdeal.S8x32x9x64x64, .f32⟩ : BufTy).Contents (Elt Ideal)) :
    Cert.ReferenceIdeal.Read.val_main_v74 (F := Ideal) x w = Cert.PixelConv.conv x w := by
  funext i
  obtain ⟨b, c, h, v, rfl⟩ : ∃ (b : Fin 8) (c : Fin 256) (h v : Fin 64), i = ix4 b c h v := ⟨i 0, i 1, i 2, i 3, eq_ix4 i⟩
  rw [conv_ix4]
  unfold val_main_v74
  refine (shapeCast_apply _ _ (ix4 b c h v) (ix5 b (grp c) (inGrp c) h v) ?_).trans (sum_apply x w b c h v)
  rewrite [Shape.rowMajor_val_five, Shape.rowMajor_val_four]
  show (((b.val * 32 + c.val / 8) * 8 + c.val % 8) * 64 + h.val) * 64 + v.val = ((b.val * 256 + c.val) * 64 + h.val) * 64 + v.val
  omega

end Cert.PixelConv.Ref

end
-- ==== Proof.BodyValue.lean ====
/-
  The value one grid point stores, entry by entry.

  One grid point holds a block of 64 consecutive planes of one batch of the image and the weights of the 8 groups those
  planes fall in. It regroups the 64 planes as 8 groups of 8, puts a border of zeros one entry wide round every plane
  (a row above and below, then a column left and right), and for each of the nine positions k = 3·i + j of a 3 × 3
  window multiplies the 64 × 64 window of the bordered planes that starts at (i, j) by that position's weights — one
  64 × 64 plane per group, repeated over the group's 8 planes — adding the nine products in order onto zero; the sum is
  regrouped back to 64 planes and stored.

  Every operation here only moves entries about or acts entry by entry, so the stored value at block entry (0, cb, h, v)
  is found by following the one entry each operation reads: the bordered plane of plane `gb·64 + cb` at
  (h + i, v + j), and the weight of group `gb·8 + cb / 8 = (gb·64 + cb) / 8` at (k, h, v). That is `convAt` of the
  specification, term for term and in the same order; no law of the extended reals is used except that the border's
  zero word is the number 0.
-/
import proofs.«178956_j54769422958614_2_alg».proof.Proof.Gen.KernelIdeal.Skeleton
import proofs.«178956_j54769422958614_2_alg».proof.Proof.Spec
import Idealize.ShloMosaic.Lib.Pipeline.Value
import Idealize.ShloMosaic.Lib.ValueIdx
import Idealize.ShloMosaic.PureOps.Ideal.Laws

noncomputable section

namespace Cert.PixelConv.Body

open Idealize.ShloMosaic Idealize.ShloMosaic.ValueIdx Cert.KernelIdeal

/-! ## Reading the layout operations at explicit coordinates -/

/-- A window of 64 × 64 entries of a 66 × 66 plane, starting at row `i` and column `j`: its entry (h, v) is the plane's
    entry (h + i, v + j). The two leading coordinates are untouched. -/
theorem slice_at (i j : Nat) (z : S8x8x66x66.Idx → EReal) (hs : S8x8x66x66.Slices ![0, 0, i, j] S8x8x64x64)
    (g q : Fin 8) (h v : Fin 64) (hi : i ≤ 2) (hj : j ≤ 2) :
    extractStridedSlice S8x8x64x64 ![0, 0, i, j] z hs (ix4 g q h v)
      = z (ix4 g q (⟨h.val + i, by have := h.isLt; omega⟩ : Fin 66) (⟨v.val + j, by have := v.isLt; omega⟩ : Fin 66)) :=
  extractStridedSlice_apply ![0, 0, i, j] z hs (ix4 g q h v) _ (fun a => match a with
    | ⟨0, _⟩ => by show g.val = 0 + g.val; omega
    | ⟨1, _⟩ => by show q.val = 0 + q.val; omega
    | ⟨2, _⟩ => by show h.val + i = i + h.val; omega
    | ⟨3, _⟩ => by show v.val + j = j + v.val; omega)

/-- The 64 planes of a block regrouped as 8 groups of 8: plane `cb` is plane `cb % 8` of group `cb / 8`. Both
    regroupings keep the row-major position, and the row-major position of (0, cb, h, v) among 1 × 64 × 64 × 64 entries is
    that of (cb / 8, cb % 8, h, v) among 8 × 8 × 64 × 64. -/
theorem unblock_at (z : S8x8x64x64.Idx → EReal) (h1 : S8x8x64x64.ShapeCasts S64x64x64) (h2 : S64x64x64.ShapeCasts S1x64x64x64)
    (cb h v : Fin 64) :
    shapeCast S1x64x64x64 (shapeCast S64x64x64 z h1) h2 (ix4 (0 : Fin 1) cb h v)
      = z (ix4 (⟨cb.val / 8, by have := cb.isLt; omega⟩ : Fin 8) (⟨cb.val % 8, by omega⟩ : Fin 8) h v) := by
  refine (shapeCast_apply (shapeCast S64x64x64 z h1) h2 (ix4 (0 : Fin 1) cb h v) (ix3 cb h v) ?_).trans ?_
  · rewrite [Shape.rowMajor_val_three, Shape.rowMajor_val_four]
    show (cb.val * 64 + h.val) * 64 + v.val = ((0 * 64 + cb.val) * 64 + h.val) * 64 + v.val
    omega
  · refine shapeCast_apply z h1 (ix3 cb h v) _ ?_
    rewrite [Shape.rowMajor_val_three, Shape.rowMajor_val_four]
    show ((cb.val / 8 * 8 + cb.val % 8) * 64 + h.val) * 64 + v.val = (cb.val * 64 + h.val) * 64 + v.val
    omega

/-- The block of 64 planes regrouped as 8 groups of 8, read at (g, q, r, s): plane `g * 8 + q` of the block. -/
theorem regroup_at (P0 : S1x64x64x64.Idx → EReal) (h1 : S1x64x64x64.ShapeCasts S64x64x64) (h2 : S64x64x64.ShapeCasts S8x8x64x64)
    (g q : Fin 8) (r s : Fin 64) :
    shapeCast S8x8x64x64 (shapeCast S64x64x64 P0 h1) h2 (ix4 g q r s)
      = P0 (ix4 (0 : Fin 1) (⟨g.val * 8 + q.val, by have := g.isLt; have := q.isLt; omega⟩ : Fin 64) r s) := by
  refine (shapeCast_apply (shapeCast S64x64x64 P0 h1) h2 (ix4 g q r s)
    (ix3 (⟨g.val * 8 + q.val, by have := g.isLt; have := q.isLt; omega⟩ : Fin 64) r s) ?_).trans ?_
  · rewrite [Shape.rowMajor_val_three, Shape.rowMajor_val_four]
    show ((g.val * 8 + q.val) * 64 + r.val) * 64 + s.val = (((g.val * 8 + q.val) * 64 + r.val) * 64 + s.val)
    rfl
  · refine shapeCast_apply P0 h1 _ _ ?_
    rewrite [Shape.rowMajor_val_three, Shape.rowMajor_val_four]
    show ((0 * 64 + (g.val * 8 + q.val)) * 64 + r.val) * 64 + s.val = ((g.val * 8 + q.val) * 64 + r.val) * 64 + s.val
    omega

/-- The weights of window position `k`, cut out of the block's 8 × 9 planes, with the unit axis dropped and put back and
    then repeated over the 8 planes of each group: at (g, q, h, v) it is the block's weight (0, g, k, h, v), whatever the
    plane `q` inside the group. -/
theorem weight_at (k : Nat) (hk : k < 9) (P1 : S1x8x9x64x64.Idx → EReal) (h0 : S1x8x9x64x64.ShapeCasts S8x9x64x64)
    (hs : S8x9x64x64.Slices ![0, k, 0, 0] S8x1x64x64) (h1 : S8x1x64x64.ShapeCasts S8x64x64)
    (h2 : S8x64x64.ShapeCasts S8x1x64x64) (hb : S8x1x64x64.Broadcasts S8x8x64x64) (g q : Fin 8) (h v : Fin 64) :
    broadcastTo S8x8x64x64 (shapeCast S8x1x64x64 (shapeCast S8x64x64
        (extractStridedSlice S8x1x64x64 ![0, k, 0, 0] (shapeCast S8x9x64x64 P1 h0) hs) h1) h2) hb (ix4 g q h v)
      = P1 (ix5 (0 : Fin 1) g (⟨k, hk⟩ : Fin 9) h v) := by
  refine (broadcastTo_apply _ hb (ix4 g q h v) (ix4 g (0 : Fin 1) h v) (fun a => match a with
    | ⟨0, _⟩ => by show g.val = if (8 : Nat) = 1 then 0 else g.val; rw [if_neg (by decide)]
    | ⟨1, _⟩ => by show 0 = if (1 : Nat) = 1 then 0 else q.val; rw [if_pos rfl]
    | ⟨2, _⟩ => by show h.val = if (64 : Nat) = 1 then 0 else h.val; rw [if_neg (by decide)]
    | ⟨3, _⟩ => by show v.val = if (64 : Nat) = 1 then 0 else v.val; rw [if_neg (by decide)])).trans ?_
  refine (shapeCast_apply _ h2 (ix4 g (0 : Fin 1) h v) (ix3 g h v) ?_).trans ?_
  · rewrite [Shape.rowMajor_val_three, Shape.rowMajor_val_four]
    show (g.val * 64 + h.val) * 64 + v.val = ((g.val * 1 + 0) * 64 + h.val) * 64 + v.val
    omega
  refine (shapeCast_apply _ h1 (ix3 g h v) (ix4 g (0 : Fin 1) h v) ?_).trans ?_
  · rewrite [Shape.rowMajor_val_three, Shape.rowMajor_val_four]
    show ((g.val * 1 + 0) * 64 + h.val) * 64 + v.val = (g.val * 64 + h.val) * 64 + v.val
    omega
  refine (extractStridedSlice_apply ![0, k, 0, 0] _ hs (ix4 g (0 : Fin 1) h v) (ix4 g (⟨k, hk⟩ : Fin 9) h v) (fun a => match a with
    | ⟨0, _⟩ => by show g.val = 0 + g.val; omega
    | ⟨1, _⟩ => by show k = k + 0; omega
    | ⟨2, _⟩ => by show h.val = 0 + h.val; omega
    | ⟨3, _⟩ => by show v.val = 0 + v.val; omega)).trans ?_
  refine shapeCast_apply P1 h0 (ix4 g (⟨k, hk⟩ : Fin 9) h v) (ix5 (0 : Fin 1) g (⟨k, hk⟩ : Fin 9) h v) ?_
  rewrite [Shape.rowMajor_val_four, Shape.rowMajor_val_five]
  show (((0 * 8 + g.val) * 9 + k) * 64 + h.val) * 64 + v.val = ((g.val * 9 + k) * 64 + h.val) * 64 + v.val
  omega

/-! ## The border: one row of a constant above and below, then one column left and right -/

/-- Three pieces laid along the rows — one row `z`, 64 rows `m`, one row `z`: row 0 of the 66 is the first piece's only row. -/
theorem rows_lo (z : S8x8x1x64.Idx → EReal) (m : S8x8x64x64.Idx → EReal) (H : Shape.Concatenates [S8x8x1x64, S8x8x64x64, S8x8x1x64] S8x8x66x64 2)
    (g q : Fin 8) (r : Fin 66) (s : Fin 64) (hc : r.val = 0) :
    concatenate S8x8x66x64 2 [⟨S8x8x1x64, z⟩, ⟨S8x8x64x64, m⟩, ⟨S8x8x1x64, z⟩] H (ix4 g q r s) = z (ix4 g q (0 : Fin 1) s) :=
  concatenate_apply_piece (t := S8x8x66x64) (2 : Fin 4) [⟨S8x8x1x64, z⟩, ⟨S8x8x64x64, m⟩, ⟨S8x8x1x64, z⟩] H (ix4 g q r s) 0 (by show (0 : Nat) < 3; omega) S8x8x1x64 z rfl rfl 0 rfl (ix4 g q (0 : Fin 1) s)
    (fun b => match b with
    | ⟨0, _⟩ => fun _ => rfl
    | ⟨1, _⟩ => fun _ => rfl
    | ⟨2, _⟩ => fun hne => absurd rfl hne
    | ⟨3, _⟩ => fun _ => rfl)
    (by show 0 + 0 = r.val; omega)

/-- Rows 1 … 64 of the 66 are the middle piece's rows 0 … 63. -/
theorem rows_mid (z : S8x8x1x64.Idx → EReal) (m : S8x8x64x64.Idx → EReal) (H : Shape.Concatenates [S8x8x1x64, S8x8x64x64, S8x8x1x64] S8x8x66x64 2)
    (g q : Fin 8) (r : Fin 66) (s : Fin 64) (p : Fin 64) (hc : r.val = p.val + 1) :
    concatenate S8x8x66x64 2 [⟨S8x8x1x64, z⟩, ⟨S8x8x64x64, m⟩, ⟨S8x8x1x64, z⟩] H (ix4 g q r s) = m (ix4 g q p s) :=
  concatenate_apply_piece (t := S8x8x66x64) (2 : Fin 4) [⟨S8x8x1x64, z⟩, ⟨S8x8x64x64, m⟩, ⟨S8x8x1x64, z⟩] H (ix4 g q r s) 1 (by show (1 : Nat) < 3; omega) S8x8x64x64 m rfl rfl 1 rfl (ix4 g q p s)
    (fun b => match b with
    | ⟨0, _⟩ => fun _ => rfl
    | ⟨1, _⟩ => fun _ => rfl
    | ⟨2, _⟩ => fun hne => absurd rfl hne
    | ⟨3, _⟩ => fun _ => rfl)
    (by show 1 + p.val = r.val; omega)

/-- Row 65 of the 66 is the last piece's only row. -/
theorem rows_hi (z : S8x8x1x64.Idx → EReal) (m : S8x8x64x64.Idx → EReal) (H : Shape.Concatenates [S8x8x1x64, S8x8x64x64, S8x8x1x64] S8x8x66x64 2)
    (g q : Fin 8) (r : Fin 66) (s : Fin 64) (hc : r.val = 65) :
    concatenate S8x8x66x64 2 [⟨S8x8x1x64, z⟩, ⟨S8x8x64x64, m⟩, ⟨S8x8x1x64, z⟩] H (ix4 g q r s) = z (ix4 g q (0 : Fin 1) s) :=
  concatenate_apply_piece (t := S8x8x66x64) (2 : Fin 4) [⟨S8x8x1x64, z⟩, ⟨S8x8x64x64, m⟩, ⟨S8x8x1x64, z⟩] H (ix4 g q r s) 2 (by show (2 : Nat) < 3; omega) S8x8x1x64 z rfl rfl 65 rfl (ix4 g q (0 : Fin 1) s)
    (fun b => match b with
    | ⟨0, _⟩ => fun _ => rfl
    | ⟨1, _⟩ => fun _ => rfl
    | ⟨2, _⟩ => fun hne => absurd rfl hne
    | ⟨3, _⟩ => fun _ => rfl)
    (by show 65 + 0 = r.val; omega)

/-- Three pieces laid along the columns — one column `z`, 64 columns `m`, one column `z`: column 0 of the 66 is the first piece's only column. -/
theorem cols_lo (z : S8x8x66x1.Idx → EReal) (m : S8x8x66x64.Idx → EReal) (H : Shape.Concatenates [S8x8x66x1, S8x8x66x64, S8x8x66x1] S8x8x66x66 3)
    (g q : Fin 8) (r s : Fin 66) (hc : s.val = 0) :
    concatenate S8x8x66x66 3 [⟨S8x8x66x1, z⟩, ⟨S8x8x66x64, m⟩, ⟨S8x8x66x1, z⟩] H (ix4 g q r s) = z (ix4 g q r (0 : Fin 1)) :=
  concatenate_apply_piece (t := S8x8x66x66) (3 : Fin 4) [⟨S8x8x66x1, z⟩, ⟨S8x8x66x64, m⟩, ⟨S8x8x66x1, z⟩] H (ix4 g q r s) 0 (by show (0 : Nat) < 3; omega) S8x8x66x1 z rfl rfl 0 rfl (ix4 g q r (0 : Fin 1))
    (fun b => match b with
    | ⟨0, _⟩ => fun _ => rfl
    | ⟨1, _⟩ => fun _ => rfl
    | ⟨2, _⟩ => fun _ => rfl
    | ⟨3, _⟩ => fun hne => absurd rfl hne)
    (by show 0 + 0 = s.val; omega)

/-- Columns 1 … 64 of the 66 are the middle piece's columns 0 … 63. -/
theorem cols_mid (z : S8x8x66x1.Idx → EReal) (m : S8x8x66x64.Idx → EReal) (H : Shape.Concatenates [S8x8x66x1, S8x8x66x64, S8x8x66x1] S8x8x66x66 3)
    (g q : Fin 8) (r s : Fin 66) (p : Fin 64) (hc : s.val = p.val + 1) :
    concatenate S8x8x66x66 3 [⟨S8x8x66x1, z⟩, ⟨S8x8x66x64, m⟩, ⟨S8x8x66x1, z⟩] H (ix4 g q r s) = m (ix4 g q r p) :=
  concatenate_apply_piece (t := S8x8x66x66) (3 : Fin 4) [⟨S8x8x66x1, z⟩, ⟨S8x8x66x64, m⟩, ⟨S8x8x66x1, z⟩] H (ix4 g q r s) 1 (by show (1 : Nat) < 3; omega) S8x8x66x64 m rfl rfl 1 rfl (ix4 g q r p)
    (fun b => match b with
    | ⟨0, _⟩ => fun _ => rfl
    | ⟨1, _⟩ => fun _ => rfl
    | ⟨2, _⟩ => fun _ => rfl
    | ⟨3, _⟩ => fun hne => absurd rfl hne)
    (by show 1 + p.val = s.val; omega)

/-- Column 65 of the 66 is the last piece's only column. -/
theorem cols_hi (z : S8x8x66x1.Idx → EReal) (m : S8x8x66x64.Idx → EReal) (H : Shape.Concatenates [S8x8x66x1, S8x8x66x64, S8x8x66x1] S8x8x66x66 3)
    (g q : Fin 8) (r s : Fin 66) (hc : s.val = 65) :
    concatenate S8x8x66x66 3 [⟨S8x8x66x1, z⟩, ⟨S8x8x66x64, m⟩, ⟨S8x8x66x1, z⟩] H (ix4 g q r s) = z (ix4 g q r (0 : Fin 1)) :=
  concatenate_apply_piece (t := S8x8x66x66) (3 : Fin 4) [⟨S8x8x66x1, z⟩, ⟨S8x8x66x64, m⟩, ⟨S8x8x66x1, z⟩] H (ix4 g q r s) 2 (by show (2 : Nat) < 3; omega) S8x8x66x1 z rfl rfl 65 rfl (ix4 g q r (0 : Fin 1))
    (fun b => match b with
    | ⟨0, _⟩ => fun _ => rfl
    | ⟨1, _⟩ => fun _ => rfl
    | ⟨2, _⟩ => fun _ => rfl
    | ⟨3, _⟩ => fun hne => absurd rfl hne)
    (by show 65 + 0 = s.val; omega)

/-! ## The padded block -/

/-- A value `m` of 8 × 8 planes of 64 × 64 entries, with one row of the constant `c` put above and below every plane and
    then one column of `c` left and right: entry (r, s) of a 66 × 66 plane is `m`'s entry (r − 1, s − 1) when both r and s
    lie in 1 … 64, and `c` on the border. -/
theorem padded_gen (c : EReal) (m : S8x8x64x64.Idx → EReal)
    (H4 : Shape.Concatenates [S8x8x1x64, S8x8x64x64, S8x8x1x64] S8x8x66x64 2)
    (H6 : Shape.Concatenates [S8x8x66x1, S8x8x66x64, S8x8x66x1] S8x8x66x66 3) (g q : Fin 8) (r s : Fin 66) :
    concatenate S8x8x66x66 3 [⟨S8x8x66x1, broadcast S8x8x66x1 c⟩,
        ⟨S8x8x66x64, concatenate S8x8x66x64 2
          [⟨S8x8x1x64, broadcast S8x8x1x64 c⟩, ⟨S8x8x64x64, m⟩, ⟨S8x8x1x64, broadcast S8x8x1x64 c⟩] H4⟩,
        ⟨S8x8x66x1, broadcast S8x8x66x1 c⟩] H6 (ix4 g q r s)
      = if hh : (1 ≤ r.val ∧ r.val ≤ 64) ∧ (1 ≤ s.val ∧ s.val ≤ 64) then
          m (ix4 g q (⟨r.val - 1, by omega⟩ : Fin 64) (⟨s.val - 1, by omega⟩ : Fin 64)) else c := by
  have hr := r.isLt
  have hs := s.isLt
  by_cases hh : (1 ≤ r.val ∧ r.val ≤ 64) ∧ (1 ≤ s.val ∧ s.val ≤ 64)
  · rw [dif_pos hh]
    refine (cols_mid _ _ H6 g q r s (⟨s.val - 1, by omega⟩ : Fin 64) (by show s.val = s.val - 1 + 1; omega)).trans ?_
    exact rows_mid _ _ H4 g q r _ (⟨r.val - 1, by omega⟩ : Fin 64) (by show r.val = r.val - 1 + 1; omega)
  · rw [dif_neg hh]
    by_cases h0 : s.val = 0
    · exact cols_lo _ _ H6 g q r s h0
    by_cases h65 : s.val = 65
    · exact cols_hi _ _ H6 g q r s h65
    refine (cols_mid _ _ H6 g q r s (⟨s.val - 1, by omega⟩ : Fin 64) (by show s.val = s.val - 1 + 1; omega)).trans ?_
    by_cases r0 : r.val = 0
    · exact rows_lo _ _ H4 g q r _ r0
    · exact rows_hi _ _ H4 g q r _ (by omega)

/-- The kernel's padded block, cut from the image: its entry (g, q, r, s) is entry (r, s) of the bordered plane
    `gb * 64 + (g * 8 + q)` of batch `b`. Inside the border the regrouped block is read one row and one column back;
    on the border the block's zero word is the real number 0. -/
theorem padded_at (P0 : Vec Ideal S1x64x64x64 .f32) (x : Cert.PixelConv.XS.Idx → EReal) (b : Fin 8) (gb : Fin 4)
    (hP0 : ∀ (cb h v : Fin 64), P0 (ix4 (0 : Fin 1) cb h v)
        = x (ix4 b (⟨gb.val * 64 + cb.val, by have := gb.isLt; have := cb.isLt; omega⟩ : Fin 256) h v))
    (g q : Fin 8) (r s : Fin 66) :
    Gen.k0_pay2 P0 (ix4 g q r s)
      = Cert.PixelConv.bordered x b
          (⟨gb.val * 64 + (g.val * 8 + q.val), by have := gb.isLt; have := g.isLt; have := q.isLt; omega⟩ : Fin 256)
          r.val s.val := by
  refine (padded_gen _ _ Gen.concatenates_S8x8x1x64_S8x8x64x64_S8x8x1x64_S8x8x66x64_d2
    Gen.concatenates_S8x8x66x1_S8x8x66x64_S8x8x66x1_S8x8x66x66_d3 g q r s).trans ?_
  unfold Cert.PixelConv.bordered
  by_cases hh : (1 ≤ r.val ∧ r.val ≤ 64) ∧ (1 ≤ s.val ∧ s.val ≤ 64)
  · rw [dif_pos hh, dif_pos hh]
    refine (regroup_at P0 _ _ g q _ _).trans ?_
    exact hP0 _ _ _
  · rw [dif_neg hh, dif_neg hh]
    exact Ideal.ofBits_zero_f32

/-! ## One window position, and the nine added in order -/

/-- One step of the running sum at an index: the sum so far plus the product of the two factors there. -/
theorem step_at (acc xs wk : FVec Ideal S8x8x64x64 .f32) (i : S8x8x64x64.Idx) (A T : EReal)
    (hA : acc i = A) (hT : mulf xs wk i = T) : addf acc (mulf xs wk) i = A + T := by
  rw [addf_apply, hA, hT]

/-- Window position `k` at block entry (cb / 8, cb % 8, h, v): the window of the padded block starting at row `k / 3`
    and column `k % 3` reads the bordered plane `gb * 64 + cb` at (h + k / 3, v + k % 3), and the repeated weights read
    the weight of group `gb * 8 + cb / 8 = (gb * 64 + cb) / 8` at position `k`: their product is the specification's
    `tap`. -/
theorem tap_at (P0 : Vec Ideal S1x64x64x64 .f32) (P1 : Vec Ideal S1x8x9x64x64 .f32)
    (x : Cert.PixelConv.XS.Idx → EReal) (w : Cert.PixelConv.WS.Idx → EReal) (b : Fin 8) (gb : Fin 4)
    (hP0 : ∀ (cb h v : Fin 64), P0 (ix4 (0 : Fin 1) cb h v)
        = x (ix4 b (⟨gb.val * 64 + cb.val, by have := gb.isLt; have := cb.isLt; omega⟩ : Fin 256) h v))
    (hP1 : ∀ (g : Fin 8) (k : Fin 9) (h v : Fin 64), P1 (ix5 (0 : Fin 1) g k h v)
        = w (ix5 b (⟨gb.val * 8 + g.val, by have := gb.isLt; have := g.isLt; omega⟩ : Fin 32) k h v))
    (k i j : Nat) (hk : k < 9) (hki : k / 3 = i) (hkj : k % 3 = j)
    (xs : FVec Ideal S8x8x64x64 .f32) (hsx : S8x8x66x66.Slices ![0, 0, i, j] S8x8x64x64)
    (hxs : xs = extractStridedSlice S8x8x64x64 ![0, 0, i, j] (Gen.k0_pay2 P0) hsx)
    (hsw : S8x9x64x64.Slices ![0, k, 0, 0] S8x1x64x64) (h1 : S8x1x64x64.ShapeCasts S8x64x64)
    (h2 : S8x64x64.ShapeCasts S8x1x64x64) (hb : S8x1x64x64.Broadcasts S8x8x64x64) (cb h v : Fin 64) :
    mulf xs
        (broadcastTo S8x8x64x64 (shapeCast S8x1x64x64 (shapeCast S8x64x64
          (extractStridedSlice S8x1x64x64 ![0, k, 0, 0] (Gen.k0_pay3 P1) hsw) h1) h2) hb)
        (ix4 (⟨cb.val / 8, by have := cb.isLt; omega⟩ : Fin 8) (⟨cb.val % 8, by omega⟩ : Fin 8) h v)
      = Cert.PixelConv.tap x w b
          (⟨gb.val * 64 + cb.val, by have := gb.isLt; have := cb.isLt; omega⟩ : Fin 256) h v (⟨k, hk⟩ : Fin 9) := by
  subst hki hkj hxs
  have hi : k / 3 ≤ 2 := by omega
  have hj : k % 3 ≤ 2 := by omega
  have hgb := gb.isLt
  have hcb := cb.isLt
  rw [mulf_apply]
  unfold Cert.PixelConv.tap
  refine congrArg₂ (· * ·) ?_ ?_
  · refine (slice_at (k / 3) (k % 3) _ hsx _ _ h v hi hj).trans ?_
    refine (padded_at P0 x b gb hP0 _ _ _ _).trans ?_
    exact congrArg (fun c => Cert.PixelConv.bordered x b c (h.val + k / 3) (v.val + k % 3))
      (Fin.ext (by show gb.val * 64 + (cb.val / 8 * 8 + cb.val % 8) = gb.val * 64 + cb.val; omega))
  · refine (weight_at k hk P1 Gen.shapeCasts_S1x8x9x64x64_S8x9x64x64 hsw h1 h2 hb _ _ h v).trans ?_
    refine (hP1 _ _ _ _).trans ?_
    exact congrArg (fun c => w (ix5 b c (⟨k, hk⟩ : Fin 9) h v))
      (Fin.ext (by show gb.val * 8 + cb.val / 8 = (gb.val * 64 + cb.val) / 8; omega))

/-- The running sum after window positions 0 … 4, at block entry (cb / 8, cb % 8, h, v): the zero word the sum starts
    from, then the five products added in order. -/
theorem first_five_at (P0 : Vec Ideal S1x64x64x64 .f32) (P1 : Vec Ideal S1x8x9x64x64 .f32)
    (x : Cert.PixelConv.XS.Idx → EReal) (w : Cert.PixelConv.WS.Idx → EReal) (b : Fin 8) (gb : Fin 4)
    (hP0 : ∀ (cb h v : Fin 64), P0 (ix4 (0 : Fin 1) cb h v)
        = x (ix4 b (⟨gb.val * 64 + cb.val, by have := gb.isLt; have := cb.isLt; omega⟩ : Fin 256) h v))
    (hP1 : ∀ (g : Fin 8) (k : Fin 9) (h v : Fin 64), P1 (ix5 (0 : Fin 1) g k h v)
        = w (ix5 b (⟨gb.val * 8 + g.val, by have := gb.isLt; have := g.isLt; omega⟩ : Fin 32) k h v))
    (cb h v : Fin 64) :
    Gen.k0_pay4 P0 P1 (ix4 (⟨cb.val / 8, by have := cb.isLt; omega⟩ : Fin 8) (⟨cb.val % 8, by omega⟩ : Fin 8) h v)
      = Ideal.ofBits .f32 0x00000000#32
          + Cert.PixelConv.tap x w b (⟨gb.val * 64 + cb.val, by have := gb.isLt; have := cb.isLt; omega⟩ : Fin 256) h v 0 + Cert.PixelConv.tap x w b (⟨gb.val * 64 + cb.val, by have := gb.isLt; have := cb.isLt; omega⟩ : Fin 256) h v 1
          + Cert.PixelConv.tap x w b (⟨gb.val * 64 + cb.val, by have := gb.isLt; have := cb.isLt; omega⟩ : Fin 256) h v 2 + Cert.PixelConv.tap x w b (⟨gb.val * 64 + cb.val, by have := gb.isLt; have := cb.isLt; omega⟩ : Fin 256) h v 3
          + Cert.PixelConv.tap x w b (⟨gb.val * 64 + cb.val, by have := gb.isLt; have := cb.isLt; omega⟩ : Fin 256) h v 4 := by
  unfold Gen.k0_pay4
  refine step_at _ _ _ _ _ _ ?_ (tap_at P0 P1 x w b gb hP0 hP1 4 1 1 (by omega) rfl rfl _ Gen.slices_S8x8x66x66_o0_0_1_1_S8x8x64x64 rfl
      Gen.slices_S8x9x64x64_o0_4_0_0_S8x1x64x64 Gen.shapeCasts_S8x1x64x64_S8x64x64 Gen.shapeCasts_S8x64x64_S8x1x64x64
      Gen.broadcasts_S8x1x64x64_S8x8x64x64 cb h v)
  refine step_at _ _ _ _ _ _ ?_ (tap_at P0 P1 x w b gb hP0 hP1 3 1 0 (by omega) rfl rfl _ Gen.slices_S8x8x66x66_o0_0_1_0_S8x8x64x64 rfl
      Gen.slices_S8x9x64x64_o0_3_0_0_S8x1x64x64 Gen.shapeCasts_S8x1x64x64_S8x64x64 Gen.shapeCasts_S8x64x64_S8x1x64x64
      Gen.broadcasts_S8x1x64x64_S8x8x64x64 cb h v)
  refine step_at _ _ _ _ _ _ ?_ (tap_at P0 P1 x w b gb hP0 hP1 2 0 2 (by omega) rfl rfl _ Gen.slices_S8x8x66x66_o0_0_0_2_S8x8x64x64 rfl
      Gen.slices_S8x9x64x64_o0_2_0_0_S8x1x64x64 Gen.shapeCasts_S8x1x64x64_S8x64x64 Gen.shapeCasts_S8x64x64_S8x1x64x64
      Gen.broadcasts_S8x1x64x64_S8x8x64x64 cb h v)
  refine step_at _ _ _ _ _ _ ?_ (tap_at P0 P1 x w b gb hP0 hP1 1 0 1 (by omega) rfl rfl _ Gen.slices_S8x8x66x66_o0_0_0_1_S8x8x64x64 rfl
      Gen.slices_S8x9x64x64_o0_1_0_0_S8x1x64x64 Gen.shapeCasts_S8x1x64x64_S8x64x64 Gen.shapeCasts_S8x64x64_S8x1x64x64
      Gen.broadcasts_S8x1x64x64_S8x8x64x64 cb h v)
  refine step_at _ _ _ _ _ _ ?_ (tap_at P0 P1 x w b gb hP0 hP1 0 0 0 (by omega) rfl rfl _ Gen.slices_S8x8x66x66_o0_0_0_0_S8x8x64x64 rfl
      Gen.slices_S8x9x64x64_o0_0_0_0_S8x1x64x64 Gen.shapeCasts_S8x1x64x64_S8x64x64 Gen.shapeCasts_S8x64x64_S8x1x64x64
      Gen.broadcasts_S8x1x64x64_S8x8x64x64 cb h v)
  rfl

/-- **The stored value at a block entry is the specification's result.** The stored value is the running sum after all
    nine window positions, regrouped from 8 × 8 planes back to the block's 64: at block entry (0, cb, h, v) it is the
    sum at (cb / 8, cb % 8, h, v), which is the zero word plus the nine products of plane `gb * 64 + cb` in order. -/
theorem payload_at (P0 : Vec Ideal S1x64x64x64 .f32) (P1 : Vec Ideal S1x8x9x64x64 .f32)
    (x : Cert.PixelConv.XS.Idx → EReal) (w : Cert.PixelConv.WS.Idx → EReal) (b : Fin 8) (gb : Fin 4)
    (hP0 : ∀ (cb h v : Fin 64), P0 (ix4 (0 : Fin 1) cb h v)
        = x (ix4 b (⟨gb.val * 64 + cb.val, by have := gb.isLt; have := cb.isLt; omega⟩ : Fin 256) h v))
    (hP1 : ∀ (g : Fin 8) (k : Fin 9) (h v : Fin 64), P1 (ix5 (0 : Fin 1) g k h v)
        = w (ix5 b (⟨gb.val * 8 + g.val, by have := gb.isLt; have := g.isLt; omega⟩ : Fin 32) k h v))
    (cb h v : Fin 64) :
    Gen.k0_pay1 (Gen.k0_pay2 P0) (Gen.k0_pay3 P1) (Gen.k0_pay4 P0 P1) (Gen.k0_pay5 P0) (ix4 (0 : Fin 1) cb h v)
      = Cert.PixelConv.convAt x w b (⟨gb.val * 64 + cb.val, by have := gb.isLt; have := cb.isLt; omega⟩ : Fin 256) h v := by
  unfold Gen.k0_pay1
  refine (unblock_at _ Gen.shapeCasts_S8x8x64x64_S64x64x64 Gen.shapeCasts_S64x64x64_S1x64x64x64 cb h v).trans ?_
  unfold Cert.PixelConv.convAt
  refine step_at _ _ _ _ _ _ ?_ (tap_at P0 P1 x w b gb hP0 hP1 8 2 2 (by omega) rfl rfl _ Gen.slices_S8x8x66x66_o0_0_2_2_S8x8x64x64 rfl
      Gen.slices_S8x9x64x64_o0_8_0_0_S8x1x64x64 Gen.shapeCasts_S8x1x64x64_S8x64x64 Gen.shapeCasts_S8x64x64_S8x1x64x64
      Gen.broadcasts_S8x1x64x64_S8x8x64x64 cb h v)
  refine step_at _ _ _ _ _ _ ?_ (tap_at P0 P1 x w b gb hP0 hP1 7 2 1 (by omega) rfl rfl _ Gen.slices_S8x8x66x66_o0_0_2_1_S8x8x64x64 rfl
      Gen.slices_S8x9x64x64_o0_7_0_0_S8x1x64x64 Gen.shapeCasts_S8x1x64x64_S8x64x64 Gen.shapeCasts_S8x64x64_S8x1x64x64
      Gen.broadcasts_S8x1x64x64_S8x8x64x64 cb h v)
  refine step_at _ _ _ _ _ _ ?_ (tap_at P0 P1 x w b gb hP0 hP1 6 2 0 (by omega) rfl rfl _ Gen.slices_S8x8x66x66_o0_0_2_0_S8x8x64x64 rfl
      Gen.slices_S8x9x64x64_o0_6_0_0_S8x1x64x64 Gen.shapeCasts_S8x1x64x64_S8x64x64 Gen.shapeCasts_S8x64x64_S8x1x64x64
      Gen.broadcasts_S8x1x64x64_S8x8x64x64 cb h v)
  refine step_at _ _ _ _ _ _ ?_ (tap_at P0 P1 x w b gb hP0 hP1 5 1 2 (by omega) rfl rfl _ Gen.slices_S8x8x66x66_o0_0_1_2_S8x8x64x64 rfl
      Gen.slices_S8x9x64x64_o0_5_0_0_S8x1x64x64 Gen.shapeCasts_S8x1x64x64_S8x64x64 Gen.shapeCasts_S8x64x64_S8x1x64x64
      Gen.broadcasts_S8x1x64x64_S8x8x64x64 cb h v)
  exact first_five_at P0 P1 x w b gb hP0 hP1 cb h v

end Cert.PixelConv.Body

end
-- ==== Proof.KernelArray.lean ====
/-
  From blocks to the whole array, for the kernel at the ideal instance.

  The grid has 8 × 4 points; point (b, gb) works on planes 64·gb … 64·gb + 63 of batch b of the image, on groups
  8·gb … 8·gb + 7 of batch b of the weights, and writes the same planes of batch b of the result. So the image
  block's entry (0, cb, h, v) is the image's entry (b, 64·gb + cb, h, v), the weight block's entry (0, g, k, h, v) the
  weights' entry (b, 8·gb + g, k, h, v), and what the body stores at block entry (0, cb, h, v) is the specification
  `conv` at (b, 64·gb + cb, h, v): each point writes its block of `conv`. The 32 blocks tile the result array, so
  after the run the array is `conv` of the two argument arrays.
-/
import proofs.«178956_j54769422958614_2_alg».proof.Proof.Gen.KernelIdeal.Frame
import proofs.«178956_j54769422958614_2_alg».proof.Proof.Spec
import proofs.«178956_j54769422958614_2_alg».proof.Proof.BodyValue
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.PixelConv.Kernel

open Cert.KernelIdeal Cert.KernelIdeal.Gen

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The three index maps over the grid: all three windows sit at block (b, gb) on the batch and plane (or group) axes and
    at block 0 on every other axis, with b below 8 and gb below 4. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 5) = win0_2.index t (0 : Fin 4) ∧ win0_1.index t (1 : Fin 5) = win0_2.index t (1 : Fin 4)
    ∧ win0_1.index t (2 : Fin 5) = 0 ∧ win0_1.index t (3 : Fin 5) = 0 ∧ win0_1.index t (4 : Fin 5) = 0
    ∧ win0_2.index t (2 : Fin 4) = 0 ∧ win0_2.index t (3 : Fin 4) = 0
    ∧ win0_2.index t (0 : Fin 4) < 8 ∧ win0_2.index t (1 : Fin 4) < 4 :=
  (by decide +kernel : ∀ t : Fin grid0.N, _)

/-- Every block (b, gb) of the result is some point's. -/
theorem idx_onto : ∀ (q0 : Fin 8) (q1 : Fin 4), ∃ t : Fin cfg0.N, win0_2.index t = ![q0.val, q1.val, 0, 0] :=
  (by decide +kernel : ∀ (q0 : Fin 8) (q1 : Fin 4), ∃ t : Fin grid0.N, win0_2.index t = ![q0.val, q1.val, 0, 0])

/-- What the body leaves in the result's block, at a block index, is the specification at the array index under it —
    for any two blocks that are the image's planes 64·gb … and the weights' groups 8·gb … of batch b. -/
theorem block_value (x : XS.Idx → EReal) (w : WS.Idx → EReal)
    (P0 : Vec Ideal S1x64x64x64 .f32) (P1 : Vec Ideal S1x8x9x64x64 .f32) (b : Fin 8) (gb : Fin 4)
    (hP0 : ∀ (cb h v : Fin 64), P0 (ix4 (0 : Fin 1) cb h v)
        = x (ix4 b (⟨gb.val * 64 + cb.val, by have := gb.isLt; have := cb.isLt; omega⟩ : Fin 256) h v))
    (hP1 : ∀ (g : Fin 8) (k : Fin 9) (h v : Fin 64), P1 (ix5 (0 : Fin 1) g k h v)
        = w (ix5 b (⟨gb.val * 8 + g.val, by have := gb.isLt; have := g.isLt; omega⟩ : Fin 32) k h v))
    (z : Fin 1) (cb h v : Fin 64) :
    out0_2 P0 P1 (ix4 z cb h v)
      = conv x w (ix4 b (⟨gb.val * 64 + cb.val, by have := gb.isLt; have := cb.isLt; omega⟩ : Fin 256) h v) := by
  obtain rfl : z = 0 := Subsingleton.elim _ _
  unfold out0_2
  rw [View.canon_unit_zero hz4]
  simp only [View.ld_unit_zero (S := S1x64x64x64) hz4, View.ld_unit_zero (S := S1x8x9x64x64) hz5]
  exact Cert.PixelConv.Body.payload_at P0 P1 x w b gb hP0 hP1 cb h v

/-- WHAT POINT `t` WRITES BACK is block `t` of `conv` of the two argument arrays. -/
theorem flushed_eq (c : Dev nD) (t : Fin cfg0.N) :
    (dats m 0 c).flushed 2 t = ((cfg0.win 2).blk t).view.read (Elt Ideal)
      (conv (m ((c : Thread nD τ).loc main_arg0)) (m ((c : Thread nD τ).loc main_arg1))) := by
  show (cfg0.win 2).cut (grid0.coords t) ((dats m 0 c).after 2 t) = _
  rw [after0_2]
  obtain ⟨e00, e01, e02, e03, e10, e11, e12, e13, e14, e22, e23, hb, hgb⟩ := idx_facts t
  funext j
  obtain ⟨z, cb, h, v, rfl⟩ : ∃ (z : Fin 1) (cb h v : Fin 64), j = ix4 z cb h v := ⟨j 0, j 1, j 2, j 3, eq_ix4 j⟩
  refine (block_value (m ((c : Thread nD τ).loc main_arg0)) (m ((c : Thread nD τ).loc main_arg1))
    (iblk m c 0 t) (iblk m c 1 t) ⟨win0_2.index t (0 : Fin 4), hb⟩ ⟨win0_2.index t (1 : Fin 4), hgb⟩ ?_ ?_ z cb h v).trans ?_
  · intro cb h v
    unfold iblk
    rw [View.read_apply]
    show V m c main_arg0 _ = m ((c : Thread nD τ).loc main_arg0) _
    unfold V
    congr 1
    funext a
    apply Fin.ext
    match a with
    | ⟨0, _⟩ => show win0_0.index t (0 : Fin 4) * 1 + 1 * 0 = win0_2.index t (0 : Fin 4); omega
    | ⟨1, _⟩ => show win0_0.index t (1 : Fin 4) * 64 + 1 * cb.val = win0_2.index t (1 : Fin 4) * 64 + cb.val; omega
    | ⟨2, _⟩ => show win0_0.index t (2 : Fin 4) * 64 + 1 * h.val = h.val; omega
    | ⟨3, _⟩ => show win0_0.index t (3 : Fin 4) * 64 + 1 * v.val = v.val; omega
  · intro g k h v
    unfold iblk
    rw [View.read_apply]
    show V m c main_arg1 _ = m ((c : Thread nD τ).loc main_arg1) _
    unfold V
    congr 1
    funext a
    apply Fin.ext
    match a with
    | ⟨0, _⟩ => show win0_1.index t (0 : Fin 5) * 1 + 1 * 0 = win0_2.index t (0 : Fin 4); omega
    | ⟨1, _⟩ => show win0_1.index t (1 : Fin 5) * 8 + 1 * g.val = win0_2.index t (1 : Fin 4) * 8 + g.val; omega
    | ⟨2, _⟩ => show win0_1.index t (2 : Fin 5) * 9 + 1 * k.val = k.val; omega
    | ⟨3, _⟩ => show win0_1.index t (3 : Fin 5) * 64 + 1 * h.val = h.val; omega
    | ⟨4, _⟩ => show win0_1.index t (4 : Fin 5) * 64 + 1 * v.val = v.val; omega
  · rw [View.read_apply]
    congr 1
    funext a
    apply Fin.ext
    match a with
    | ⟨0, _⟩ => show win0_2.index t (0 : Fin 4) = win0_2.index t (0 : Fin 4) * 1 + 1 * z.val; have := z.isLt; omega
    | ⟨1, _⟩ => show win0_2.index t (1 : Fin 4) * 64 + cb.val = win0_2.index t (1 : Fin 4) * 64 + 1 * cb.val; omega
    | ⟨2, _⟩ => show h.val = win0_2.index t (2 : Fin 4) * 64 + 1 * h.val; omega
    | ⟨3, _⟩ => show v.val = win0_2.index t (3 : Fin 4) * 64 + 1 * v.val; omega

/-- An index of the result array is in point `t`'s block iff each coordinate is in the block's range on its axis. -/
theorem mem_blk (t : Fin cfg0.N) (i : S8x256x64x64.Idx) :
    i ∈ ((cfg0.win 2).blk t).view.set ↔ ∀ a : Fin 4, win0_2.index t a * S1x64x64x64.size a ≤ (i a).val
      ∧ (i a).val < win0_2.index t a * S1x64x64x64.size a + S1x64x64x64.size a := by
  show i ∈ ((View.whole main_v0).slice (win0_2.rect t)).set ↔ _
  rw [View.set_slice_whole, Rect.mem_set_unit]
  exact Iff.rfl

/-- The blocks tile the result array: entry (b, c, h, v) lies in the block of the point at (b, c / 64). -/
theorem cover (i : S8x256x64x64.Idx) :
    ∃ t : Fin cfg0.N, (cfg0.win 2).flush t = true ∧ i ∈ ((cfg0.win 2).blk t).view.set := by
  have hi0 : (i 0).val < 8 := (i 0).isLt
  have hi1 : (i 1).val < 256 := (i 1).isLt
  have hi2 : (i 2).val < 64 := (i 2).isLt
  have hi3 : (i 3).val < 64 := (i 3).isLt
  obtain ⟨t, ht⟩ := idx_onto ⟨(i 0).val, hi0⟩ ⟨(i 1).val / 64, by omega⟩
  have q0 : win0_2.index t (0 : Fin 4) = (i 0).val := congrFun ht 0
  have q1 : win0_2.index t (1 : Fin 4) = (i 1).val / 64 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 64 ≤ (i 2).val ∧ (i 2).val < win0_2.index t (2 : Fin 4) * 64 + 64; omega
  | ⟨3, _⟩ => show win0_2.index t (3 : Fin 4) * 64 ≤ (i 3).val ∧ (i 3).val < win0_2.index t (3 : Fin 4) * 64 + 64; omega

/-- THE RESULT ARRAY after the run is `conv` of the two argument arrays. -/
theorem final (c : Dev nD) : (dats m 0 c).arrAt 2 cfg0.N
    = conv (m ((c : Thread nD τ).loc main_arg0)) (m ((c : Thread nD τ).loc main_arg1)) :=
  (dats m 0 c).arrAt_eq_of_cover 2 _ (fun t _ => flushed_eq m c t) cover

/-- The kernel's run, read: every weakly fair execution ends with the result array at `conv` of the argument arrays
    as launched, and the argument arrays unchanged. -/
theorem run : θ_run defs (onTc (τ := τ) (main (F := Ideal))) ⟨m, fun _ => 0, ρ⟩ fun r => ∀ c : Dev nD,
      r.2.mem ((c : Thread nD τ).loc main_v0)
        = conv (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.PixelConv.Kernel

end
-- ==== Proof.lean ====
/-
  A per-pixel 3 × 3 window sum with per-pixel weights, computed by a tiled kernel and by a host reference: the two agree
  at the ideal instance, where floats are extended reals and every operation is exact.

  The image `x` has 8 batches of 256 planes of 64 × 64 entries; the weights `w` give, for each batch and each group of
  8 consecutive planes, nine 64 × 64 planes, one per window position. With every image plane bordered by zeros one entry
  wide, the result at (b, c, h, v) is

      ((0 + t₀) + t₁ + … ) + t₈,    t_k = bordered x b c (h + k / 3) (v + k % 3) · w (b, c / 8, k, h, v)

  (Proof/Spec.lean, `conv`). Both programs form exactly this expression, the same nine products added in the same
  order onto the same zero, so no law of the extended reals is needed and the inputs' finiteness is never used:

  * the reference pads the image, and nine times cuts a window of the padded image, regroups it, multiplies it by a
    repeated weight plane and adds it to the running sum (Proof/RefConv.lean, over the reference's run and its
    operations read one at a time);
  * the kernel's grid point (b, gb) holds planes 64·gb … 64·gb + 63 of batch b and the weights of their 8 groups, pads
    and multiplies and adds in the same way inside the block (Proof/BodyValue.lean), and writes block (b, gb) of
    the result; the 32 blocks tile the result array (Proof/KernelArray.lean, over the kernel's frame run).

  The three frames are the kernels' frame runs and the reference's run with its result dropped; the kernel's
  idealization rewrote no operation, so there is nothing to preserve.
-/
import proofs.«178956_j54769422958614_2_alg».proof.Defs
import proofs.«178956_j54769422958614_2_alg».proof.Proof.Gen.Kernel
import proofs.«178956_j54769422958614_2_alg».proof.Proof.Gen.Kernel.Frame
import proofs.«178956_j54769422958614_2_alg».proof.Proof.Gen.KernelIdeal
import proofs.«178956_j54769422958614_2_alg».proof.Proof.Gen.KernelIdeal.Frame
import proofs.«178956_j54769422958614_2_alg».proof.Proof.Gen.ReferenceIdeal
import proofs.«178956_j54769422958614_2_alg».proof.Proof.Gen.Pre_finite_inputs
import proofs.«178956_j54769422958614_2_alg».proof.Proof.Gen.ReferenceIdeal.Run
import proofs.«178956_j54769422958614_2_alg».proof.Proof.Gen.ReferenceIdeal.Read
import proofs.«178956_j54769422958614_2_alg».proof.Proof.Spec
import proofs.«178956_j54769422958614_2_alg».proof.Proof.RefConv
import proofs.«178956_j54769422958614_2_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and leaves its arguments alone: the generated frame. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel, so there is nothing to preserve. -/
theorem preserves : Cert.preserves_Kernel_KernelIdeal := trivial

/-- Both programs end with the result array at `conv` of the argument arrays: the kernel because each of its 32 grid
    points writes its block of `conv` and the blocks tile the array, the reference because its nine slice–multiply–add
    steps over the zero-bordered image are `conv`'s nine window positions in the same order. -/
theorem algebraic : Cert.algebraic_KernelIdeal_ReferenceIdeal := by
  intro m ρ m' ρ' _ hagree
  refine ⟨fun c => Cert.PixelConv.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.PixelConv.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v74_eq, Cert.PixelConv.Ref.ref_eq_conv, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
